-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg5 : FVec F S64 .f32) (main_arg6 : FVec F S64x128 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S64 .f32) (main_arg6 : FVec F S64x128 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 62
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x64, .f32⟩
  | .hbm, ⟨23, _⟩ => ⟨S_, .f32⟩
  | .hbm, ⟨24, _⟩ => ⟨S100000x64, .f32⟩
  | .hbm, ⟨25, _⟩ => ⟨S400000x1, .i32⟩
  | .hbm, ⟨26, _⟩ => ⟨S100000x64, .f32⟩
  | .hbm, ⟨27, _⟩ => ⟨S_, .f32⟩
  | .hbm, ⟨28, _⟩ => ⟨S400000x1, .f32⟩
  | .hbm, ⟨29, _⟩ => ⟨S_, .f32⟩
  | .hbm, ⟨30, _⟩ => ⟨S100000x1, .f32⟩
  | .hbm, ⟨31, _⟩ => ⟨S400000x1, .i32⟩
  | .hbm, ⟨32, _⟩ => ⟨S100000x1, .f32⟩
  | .hbm, ⟨33, _⟩ => ⟨S400000, .i32⟩
  | .hbm, ⟨34, _⟩ => ⟨S400000, .i32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x64, .f32⟩
  | .hbm, ⟨44, _⟩ => ⟨S_, .f32⟩
  | .hbm, ⟨45, _⟩ => ⟨S100000x64, .f32⟩
  | .hbm, ⟨46, _⟩ => ⟨S400000x1, .i32⟩
  | .hbm, ⟨47, _⟩ => ⟨S100000x64, .f32⟩
  | .hbm, ⟨48, _⟩ => ⟨S_, .f32⟩
  | .hbm, ⟨49, _⟩ => ⟨S400000x1, .f32⟩
  | .hbm, ⟨50, _⟩ => ⟨S_, .f32⟩
  | .hbm, ⟨51, _⟩ => ⟨S100000x1, .f32⟩
  | .hbm, ⟨52, _⟩ => ⟨S400000x1, .i32⟩
  | .hbm, ⟨53, _⟩ => ⟨S100000x1, .f32⟩
  | .hbm, ⟨54, _⟩ => ⟨S100000x64, .f32⟩
  | .hbm, ⟨55, _⟩ => ⟨S100000x1, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S64x64, .f32⟩
  | .hbm, ⟨60, _⟩ => ⟨S64x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S800000_S400000_0 : S800000.Slices ![0] S400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x64 : S_.BroadcastsInDim S100000x64 (![] : Fin 0 → Fin S100000x64.rank)
  bcast_S_S400000x1 : S_.BroadcastsInDim S400000x1 (![] : Fin 0 → Fin S400000x1.rank)
  bcast_S_S100000x1 : S_.BroadcastsInDim S100000x1 (![] : Fin 0 → Fin S100000x1.rank)
  slices_S800000_S400000_400000 : S800000.Slices ![400000] S400000
  shapeCasts_S64_S1x64 : S64.ShapeCasts S1x64
  slices_S64x128_S64x64_0_0 : S64x128.Slices ![0, 0] S64x64
  slices_S64x128_S64x64_0_64 : S64x128.Slices ![0, 64] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S64x64_S64x64 : S64x64.ShapeCasts S64x64
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  scatter_S100000x1_S400000x1_S400000x1_1_0_0_1_wf : ScatterDims.WF S100000x1 S400000x1 S400000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)

variable [Facts₀]

def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v15) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x128 : Shape := ⟨2, ![64, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S100000x1 : Shape := ⟨2, ![100000, 1]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S100000x128 : Shape := ⟨2, ![100000, 128]⟩
abbrev S128x64 : Shape := ⟨2, ![128, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x64, .f32⟩
  | .hbm, ⟨21, _⟩ => ⟨S_, .f32⟩
  | .hbm, ⟨22, _⟩ => ⟨S100000x64, .f32⟩
  | .hbm, ⟨23, _⟩ => ⟨S400000x1, .i32⟩
  | .hbm, ⟨24, _⟩ => ⟨S100000x64, .f32⟩
  | .hbm, ⟨25, _⟩ => ⟨S_, .f32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S100000x64, .f32⟩
  | .hbm, ⟨56, _⟩ => ⟨S800000x1, .i32⟩
  | .hbm, ⟨57, _⟩ => ⟨S100000x64, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S100000x1, .f32⟩
  | .hbm, ⟨62, _⟩ => ⟨S800000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S64x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x128, .f32⟩
  | .hbm, ⟨75, _⟩ => ⟨S128x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x800000_S1x400000_0_0 : S2x800000.Slices ![0, 0] S1x400000
  shapeCasts_S1x400000_S400000 : S1x400000.ShapeCasts S400000
  slices_S2x800000_S1x400000_1_0 : S2x800000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x64 : S_.BroadcastsInDim S100000x64 (![] : Fin 0 → Fin S100000x64.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S100000x64_S100000x64_S100000x128_d1 : Shape.Concatenates [S100000x64, S100000x64] S100000x128 1
  transposes_S64x128_S128x64_1_0 : S64x128.Transposes [1, 0] S128x64
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  scatter_S100000x1_S400000x1_S400000x1_1_0_0_1_wf : ScatterDims.WF S100000x1 S400000x1 S400000x1 [1] [0] [0] 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000x1_S800000x1_S800000x1_1_0_0_1_wf : ScatterDims.WF S100000x1 S800000x1 S800000x1 [1] [0] [0] 1
  dot_S100000x128_S128x64_S100000x64_1_0_0_1_n_n_wf : DotDims.WF S100000x128 S128x64 S100000x64 [1] [0] [0] [1] [] []

variable [Facts₀]

def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.FusedSpec.lean ====
/-
  The fused dense stage of a two-scale graph convolution, for one node, on the extended reals.

  A node comes with two aggregated feature rows a₁, a₂ (sums of neighbour features over the first 4 and the first 8
  edges per node) and the two neighbour counts c₁, c₂. Each scale s normalises its row by its count plus ε and applies a
  linear layer:      convₛ j = (Σₖ (aₛ k / (cₛ + ε)) · wₛ j k) + bₛ j.
  The two results are mixed by a gate. The gate's weight matrix has 128 input columns; its first 64 columns act on
  conv₁ and its last 64 on conv₂, so the gate's logit at output feature o is
                     (Σₖ conv₁ k · wA o k) + (Σₖ conv₂ k · wB o k) + bg o,
  and the node's output feature o is  g · conv₁ o + (1 − g) · conv₂ o  with g the logistic function of that logit.
  Nothing here mentions a program; ε and 1 are kept as the float32 words the programs spell them with.
-/
import Idealize.ShloMosaic.PureOps.Ideal
import Idealize.ShloMosaic.Lib.ValueIdx

noncomputable section

open scoped BigOperators

namespace Cert.Fused

open Idealize.ShloMosaic Idealize.ShloMosaic.ValueIdx

/-- The ε added to a neighbour count before dividing: the float32 word nearest 10⁻⁶. -/
def eps : EReal := Ideal.ofBits .f32 0x358637BD#32

/-- The float32 word of one. -/
def one : EReal := Ideal.ofBits .f32 0x3F800000#32

/-- One scale's convolution of a node at output feature j: the row normalised by count + ε, times the weights, plus the bias. -/
def conv (a : Fin 64 → EReal) (c : EReal) (w : Fin 64 → Fin 64 → EReal) (b : Fin 64 → EReal) (j : Fin 64) : EReal :=
  (∑ k : Fin 64, Ideal.div (a k) (c + eps) * w j k) + b j

/-- The gated mixture of the two scales' results at output feature o. -/
def fuse (o1 o2 : Fin 64 → EReal) (wA wB : Fin 64 → Fin 64 → EReal) (bg : Fin 64 → EReal) (o : Fin 64) : EReal :=
  Ideal.logistic ((∑ k : Fin 64, o1 k * wA o k) + (∑ k : Fin 64, o2 k * wB o k) + bg o) * o1 o
    + (one - Ideal.logistic ((∑ k : Fin 64, o1 k * wA o k) + (∑ k : Fin 64, o2 k * wB o k) + bg o)) * o2 o

/-- A node's output feature o from its two aggregated rows, its two counts and the weights. -/
def rowOut (a1 : Fin 64 → EReal) (c1 : EReal) (a2 : Fin 64 → EReal) (c2 : EReal)
    (w1 : Fin 64 → Fin 64 → EReal) (b1 : Fin 64 → EReal) (w2 : Fin 64 → Fin 64 → EReal) (b2 : Fin 64 → EReal)
    (wA wB : Fin 64 → Fin 64 → EReal) (bg : Fin 64 → EReal) (o : Fin 64) : EReal :=
  fuse (conv a1 c1 w1 b1) (conv a2 c2 w2 b2) wA wB bg o

/-- The first and the last 64 columns of a 128-column index. -/
def colA (k : Fin 64) : Fin 128 := ⟨k.val, by have := k.isLt; omega⟩
def colB (k : Fin 64) : Fin 128 := ⟨64 + k.val, by have := k.isLt; omega⟩

/-- The whole output array from the four aggregated arrays and the weights as the arguments give them:
    weights [64, 64] and [64, 128] read at (output feature, input feature), biases [64]. -/
def dense (A1 : (⟨2, ![100000, 64]⟩ : Shape).Idx → EReal) (C1 : (⟨2, ![100000, 1]⟩ : Shape).Idx → EReal)
    (A2 : (⟨2, ![100000, 64]⟩ : Shape).Idx → EReal) (C2 : (⟨2, ![100000, 1]⟩ : Shape).Idx → EReal)
    (W1 : (⟨2, ![64, 64]⟩ : Shape).Idx → EReal) (B1 : (⟨1, ![64]⟩ : Shape).Idx → EReal)
    (W2 : (⟨2, ![64, 64]⟩ : Shape).Idx → EReal) (B2 : (⟨1, ![64]⟩ : Shape).Idx → EReal)
    (Wg : (⟨2, ![64, 128]⟩ : Shape).Idx → EReal) (Bg : (⟨1, ![64]⟩ : Shape).Idx → EReal)
    (n : Fin 100000) (o : Fin 64) : EReal :=
  rowOut (fun k => A1 (ix2 n k)) (C1 (ix2 n (0 : Fin 1))) (fun k => A2 (ix2 n k)) (C2 (ix2 n (0 : Fin 1)))
    (fun j k => W1 (ix2 j k)) (fun j => B1 (ix1 j)) (fun j k => W2 (ix2 j k)) (fun j => B2 (ix1 j))
    (fun j k => Wg (ix2 j (colA k))) (fun j k => Wg (ix2 j (colB k))) (fun j => Bg (ix1 j)) o

end Cert.Fused

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.TileValue.lean ====
/-
  One row tile of the fused dense stage, read entry by entry.

  The tile's body receives a block of 5000 nodes: their two aggregated feature blocks [5000, 64], their two count
  columns [5000, 1], and the whole weights (two [64, 64] layer matrices, the two [64, 64] halves of the gate matrix,
  three bias rows [1, 64]). It divides each feature block by its count column plus ε spread across the lanes,
  multiplies by the transposed layer matrix (a product into a zero accumulator: entry (p, j) is Σₖ a(p, k) · w(j, k)),
  adds the bias row spread down the rows, multiplies each of the two results by a transposed half of the gate matrix,
  adds those and the gate bias, applies the logistic function, and mixes. Changes of float format are the identity on
  the extended reals. Entry (p, o) of what it stores is therefore the node-wise function `rowOut` of row p of the blocks.
-/
import proofs.«123001_j5222680232055_2_alg».proof.Proof.Gen.KernelIdeal.Frame
import proofs.«123001_j5222680232055_2_alg».proof.Proof.FusedSpec
import proofs.«123001_j5222680232055_2_alg».proof.Proof.LibPlainDot
import proofs.«123001_j5222680232055_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Fused.Tile

open Cert.KernelIdeal Cert.KernelIdeal.Gen Idealize.ShloMosaic Idealize.ShloMosaic.ValueIdx Cert.Fused

/-- The tile's matrix products contract the left operand's lanes with the right operand's rows. -/
theorem dot_plain : PlainDot.IsPlain (M := 5000) (K := 64) (N := 64) dot_S5000x64_S64x64_S5000x64_1_0_0_1_n_n where
  rank := rfl
  size := rfl
  lhs0 := fun i q => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  lhs1 := fun i q => dot_S5000x64_S64x64_S5000x64_1_0_0_1_n_n.lhsIdx_val_of_single rfl i q
  rhs0 := fun i q => dot_S5000x64_S64x64_S5000x64_1_0_0_1_n_n.rhsIdx_val_of_single rfl i q
  rhs1 := fun i q => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- A feature block divided by its count column plus ε, the column spread across the lanes: entry (p, k). -/
theorem normalised_apply (a : FVec Ideal S5000x64 .f32) (cnt : FVec Ideal S5000x1 .f32) (p : Fin 5000) (k : Fin 64) :
    divf a (broadcastTo S5000x64 (addf cnt (broadcast S5000x1 (Scalar.ofBits (F := Ideal) .f32 0x358637BD#32))) broadcasts_S5000x1_S5000x64) (ix2 p k)
      = Ideal.div (a (ix2 p k)) (cnt (ix2 p (0 : Fin 1)) + eps) := by
  rw [divf_apply, Keepdims.broadcastTo_a1_ab_apply, addf_apply, broadcast_apply]
  rfl

/-- A block times a transposed [64, 64] matrix into the zero accumulator, plus a bias row spread down the rows: entry (p, j). -/
theorem layer_apply {φ₁ φ₂ : FTy} (a : FVec Ideal S5000x64 φ₁) (w : FVec Ideal S64x64 φ₂) (b : FVec Ideal S1x64 .f32) (p : Fin 5000) (j : Fin 64) :
    addf (matmul dot_S5000x64_S64x64_S5000x64_1_0_0_1_n_n none a (transpose S64x64 [1, 0] w transposes_S64x64_p1_0_S64x64) (constant S5000x64 .f32 0x00000000#32))
        (broadcastTo S5000x64 b broadcasts_S1x64_S5000x64) (ix2 p j)
      = (∑ k : Fin 64, a (ix2 p k) * w (ix2 j k)) + b (ix2 (0 : Fin 1) j) := by
  rw [addf_apply, broadcastTo_1b_ab_apply]
  refine congrArg₂ (· + ·) ((PlainDot.matmul_zero_apply _ dot_plain none a _ p j).trans (Finset.sum_congr rfl fun k _ => ?_)) rfl
  rw [transpose_ix2_apply]

/-- One scale's convolution as the tile computes it: entry (p, j) is `conv` of row p. -/
theorem conv1_apply (x0 : Vec Ideal S5000x64 .f32) (x1 : Vec Ideal S5000x1 .f32) (x4 : Vec Ideal S64x64 .f32) (x5 : Vec Ideal S1x64 .f32)
    (p : Fin 5000) (j : Fin 64) :
    k0_pay2 x0 x1 x4 x5 (ix2 p j)
      = conv (fun k => x0 (ix2 p k)) (x1 (ix2 p (0 : Fin 1))) (fun j k => x4 (ix2 j k)) (fun j => x5 (ix2 (0 : Fin 1) j)) j := by
  simp only [k0_pay2, shapeCast_self]
  refine (layer_apply _ _ _ p j).trans ?_
  unfold conv
  refine congrArg₂ (· + ·) (Finset.sum_congr rfl fun k _ => ?_) rfl
  rw [truncf_apply, truncf_apply, normalised_apply]

theorem conv2_apply (x2 : Vec Ideal S5000x64 .f32) (x3 : Vec Ideal S5000x1 .f32) (x6 : Vec Ideal S64x64 .f32) (x7 : Vec Ideal S1x64 .f32)
    (p : Fin 5000) (j : Fin 64) :
    k0_pay3 x2 x3 x6 x7 (ix2 p j)
      = conv (fun k => x2 (ix2 p k)) (x3 (ix2 p (0 : Fin 1))) (fun j k => x6 (ix2 j k)) (fun j => x7 (ix2 (0 : Fin 1) j)) j := by
  simp only [k0_pay3, shapeCast_self]
  refine (layer_apply _ _ _ p j).trans ?_
  unfold conv
  refine congrArg₂ (· + ·) (Finset.sum_congr rfl fun k _ => ?_) rfl
  rw [truncf_apply, truncf_apply, normalised_apply]

/-- The gate's logit as the tile computes it: the two results times the transposed halves of the gate matrix, added, plus
    the gate bias row spread down the rows: entry (p, o). -/
theorem logit_apply {φ₁ φ₂ : FTy} (u1 u2 : FVec Ideal S5000x64 φ₁) (wA wB : FVec Ideal S64x64 φ₂) (b : FVec Ideal S1x64 .f32) (p : Fin 5000) (o : Fin 64) :
    addf (addf (matmul dot_S5000x64_S64x64_S5000x64_1_0_0_1_n_n none u1 (transpose S64x64 [1, 0] wA transposes_S64x64_p1_0_S64x64) (constant S5000x64 .f32 0x00000000#32))
          (matmul dot_S5000x64_S64x64_S5000x64_1_0_0_1_n_n none u2 (transpose S64x64 [1, 0] wB transposes_S64x64_p1_0_S64x64) (constant S5000x64 .f32 0x00000000#32)))
        (broadcastTo S5000x64 b broadcasts_S1x64_S5000x64) (ix2 p o)
      = (∑ k : Fin 64, u1 (ix2 p k) * wA (ix2 o k)) + (∑ k : Fin 64, u2 (ix2 p k) * wB (ix2 o k)) + b (ix2 (0 : Fin 1) o) := by
  rw [addf_apply, addf_apply, broadcastTo_1b_ab_apply]
  refine congrArg₂ (· + ·) (congrArg₂ (· + ·)
    ((PlainDot.matmul_zero_apply _ dot_plain none u1 _ p o).trans (Finset.sum_congr rfl fun k _ => ?_))
    ((PlainDot.matmul_zero_apply _ dot_plain none u2 _ p o).trans (Finset.sum_congr rfl fun k _ => ?_))) rfl
  · rw [transpose_ix2_apply]
  · rw [transpose_ix2_apply]

/-- The gated mixture as the tile computes it: entry (p, o). -/
theorem gate_apply (v27 v33 : FVec Ideal S5000x64 .f32) (v34 v35 : FVec Ideal S5000x64 .bf16) (v36 v39 : Vec Ideal S64x64 .f32)
    (v47 : Vec Ideal S1x64 .f32) (p : Fin 5000) (o : Fin 64) :
    k0_pay1 v27 v33 v34 v35 v36 v39 v47 (ix2 p o)
      = Ideal.logistic ((∑ k : Fin 64, v34 (ix2 p k) * v36 (ix2 o k)) + (∑ k : Fin 64, v35 (ix2 p k) * v39 (ix2 o k)) + v47 (ix2 (0 : Fin 1) o)) * v27 (ix2 p o)
        + (one - Ideal.logistic ((∑ k : Fin 64, v34 (ix2 p k) * v36 (ix2 o k)) + (∑ k : Fin 64, v35 (ix2 p k) * v39 (ix2 o k)) + v47 (ix2 (0 : Fin 1) o))) * v33 (ix2 p o) := by
  simp only [k0_pay1, shapeCast_self]
  rw [addf_apply, mulf_apply, mulf_apply, subf_apply, broadcast_apply]
  have hl := logit_apply v34 v35 (truncf .bf16 v36 bitsLt_bf16_f32) (truncf .bf16 v39 bitsLt_bf16_f32) v47 p o
  exact congrArg₂ (· + ·) (congrArg₂ (· * ·) (congrArg Ideal.logistic hl) rfl)
    (congrArg₂ (· * ·) (congrArg₂ (· - ·) rfl (congrArg Ideal.logistic hl)) rfl)

/-- WHAT THE TILE STORES at (p, o): the node-wise function of row p of its four aggregated blocks and of the weights. -/
theorem tile_apply (x0 : Vec Ideal S5000x64 .f32) (x1 : Vec Ideal S5000x1 .f32) (x2 : Vec Ideal S5000x64 .f32) (x3 : Vec Ideal S5000x1 .f32)
    (x4 : Vec Ideal S64x64 .f32) (x5 : Vec Ideal S1x64 .f32) (x6 : Vec Ideal S64x64 .f32) (x7 : Vec Ideal S1x64 .f32)
    (x8 x9 : Vec Ideal S64x64 .f32) (x10 : Vec Ideal S1x64 .f32) (p : Fin 5000) (o : Fin 64) :
    k0_pay1 (k0_pay2 x0 x1 x4 x5) (k0_pay3 x2 x3 x6 x7) (k0_pay4 x0 x1 x4 x5) (k0_pay5 x2 x3 x6 x7) x8 x9 x10 (ix2 p o)
      = rowOut (fun k => x0 (ix2 p k)) (x1 (ix2 p (0 : Fin 1))) (fun k => x2 (ix2 p k)) (x3 (ix2 p (0 : Fin 1)))
          (fun j k => x4 (ix2 j k)) (fun j => x5 (ix2 (0 : Fin 1) j)) (fun j k => x6 (ix2 j k)) (fun j => x7 (ix2 (0 : Fin 1) j))
          (fun j k => x8 (ix2 j k)) (fun j k => x9 (ix2 j k)) (fun j => x10 (ix2 (0 : Fin 1) j)) o := by
  refine (gate_apply _ _ _ _ _ _ _ p o).trans ?_
  have h4 : ∀ k : Fin 64, k0_pay4 x0 x1 x4 x5 (ix2 p k) = k0_pay2 x0 x1 x4 x5 (ix2 p k) := fun _ => rfl
  have h5 : ∀ k : Fin 64, k0_pay5 x2 x3 x6 x7 (ix2 p k) = k0_pay3 x2 x3 x6 x7 (ix2 p k) := fun _ => rfl
  simp only [h4, h5, conv1_apply, conv2_apply]
  rfl

end Cert.Fused.Tile

end
-- ==== Proof.KernelArray.lean ====
/-
  From row tiles to the whole array.

  The output [100000, 64] is cut into 20 blocks of 5000 rows; grid point t works on rows 5000·t … 5000·t + 4999 of the
  four aggregated arrays and on the whole of every weight and bias array, and writes block t of the output. So entry
  (n, o) of the final array is the node-wise function `rowOut` of row n of the arrays the windows read: the blocks are
  restrictions of ONE function of those arrays, and they cover every row (row n lies in block n / 5000).
-/
import proofs.«123001_j5222680232055_2_alg».proof.Proof.Gen.KernelIdeal.Value
import proofs.«123001_j5222680232055_2_alg».proof.Proof.TileValue
import proofs.«123001_j5222680232055_2_alg».proof.Proof.FusedSpec

set_option maxRecDepth 16384

noncomputable section

namespace Cert.Fused.Blocks

open Cert.KernelIdeal Cert.KernelIdeal.Gen Cert.KernelIdeal.Value Idealize.ShloMosaic Idealize.ShloMosaic.TcCoe
open Idealize.ShloMosaic.ValueIdx Idealize.SL.Sem Cert.Fused
open Idealize.ShloMosaic.Pipeline (Dat)

variable (m : (ℓ : Loc nD τ sig) → Buf (Elt Ideal) ℓ) (ρ : Dev nD → PrngReg)

/-- `rowOut` respects equality of each of its arguments. -/
theorem rowOut_congr {a1 a1' : Fin 64 → EReal} {c1 c1' : EReal} {a2 a2' : Fin 64 → EReal} {c2 c2' : EReal}
    {w1 w1' : Fin 64 → Fin 64 → EReal} {b1 b1' : Fin 64 → EReal} {w2 w2' : Fin 64 → Fin 64 → EReal} {b2 b2' : Fin 64 → EReal}
    {wA wA' wB wB' : Fin 64 → Fin 64 → EReal} {bg bg' : Fin 64 → EReal} (o : Fin 64)
    (h1 : a1 = a1') (h2 : c1 = c1') (h3 : a2 = a2') (h4 : c2 = c2') (h5 : w1 = w1') (h6 : b1 = b1') (h7 : w2 = w2') (h8 : b2 = b2')
    (h9 : wA = wA') (h10 : wB = wB') (h11 : bg = bg') :
    rowOut a1 c1 a2 c2 w1 b1 w2 b2 wA wB bg o = rowOut a1' c1' a2' c2' w1' b1' w2' b2' wA' wB' bg' o := by
  subst h1 h2 h3 h4 h5 h6 h7 h8 h9 h10 h11; rfl

/-- The final array as one function of the eleven arrays the windows read: entry (n, o) from row n of the four
    aggregated arrays, the layer matrices, the bias rows [1, 64] and the two halves of the gate matrix. -/
def tileFn (A1 : S100000x64.Idx → EReal) (C1 : S100000x1.Idx → EReal) (A2 : S100000x64.Idx → EReal) (C2 : S100000x1.Idx → EReal)
    (W1 : S64x64.Idx → EReal) (B1 : S1x64.Idx → EReal) (W2 : S64x64.Idx → EReal) (B2 : S1x64.Idx → EReal)
    (WA WB : S64x64.Idx → EReal) (BG : S1x64.Idx → EReal) (n : Fin 100000) (o : Fin 64) : EReal :=
  rowOut (fun k => A1 (ix2 n k)) (C1 (ix2 n (0 : Fin 1))) (fun k => A2 (ix2 n k)) (C2 (ix2 n (0 : Fin 1)))
    (fun j k => W1 (ix2 j k)) (fun j => B1 (ix2 (0 : Fin 1) j)) (fun j k => W2 (ix2 j k)) (fun j => B2 (ix2 (0 : Fin 1) j))
    (fun j k => WA (ix2 j k)) (fun j k => WB (ix2 j k)) (fun j => BG (ix2 (0 : Fin 1) j)) o

/-- The same as an array. -/
def tileArr (A1 : S100000x64.Idx → EReal) (C1 : S100000x1.Idx → EReal) (A2 : S100000x64.Idx → EReal) (C2 : S100000x1.Idx → EReal)
    (W1 : S64x64.Idx → EReal) (B1 : S1x64.Idx → EReal) (W2 : S64x64.Idx → EReal) (B2 : S1x64.Idx → EReal)
    (WA WB : S64x64.Idx → EReal) (BG : S1x64.Idx → EReal) : S100000x64.Idx → EReal :=
  fun i => tileFn A1 C1 A2 C2 W1 B1 W2 B2 WA WB BG (i 0) (i 1)

theorem hz : (![0, 0] : Fin 2 → Nat) = fun _ => 0 := funext fun a => by fin_cases a <;> rfl

/-- The printed index maps over the 20 grid points: the four aggregated arrays and the output move with the point along
    the rows, every weight and bias window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Window 0's block at point t, at (p, k), is its array at row 5000·t + p. -/
theorem blk0 (c : Dev nD) (t : Fin cfg0.N) (p : Fin 5000) (k : Fin 64) (n : Fin 100000) (hn : n.val = t.val * 5000 + p.val) :
    iblk m c 0 t (ix2 p k) = V m c main_v15 (ix2 n k) := by
  have hf := idx_facts t
  show V m c main_v15 (((cfg0.win 0).blk t).view.emb (ix2 p k)) = V m c main_v15 (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- Window 2's block at point t, at (p, k), is its array at row 5000·t + p. -/
theorem blk2 (c : Dev nD) (t : Fin cfg0.N) (p : Fin 5000) (k : Fin 64) (n : Fin 100000) (hn : n.val = t.val * 5000 + p.val) :
    iblk m c 2 t (ix2 p k) = V m c main_v36 (ix2 n k) := by
  have hf := idx_facts t
  show V m c main_v36 (((cfg0.win 2).blk t).view.emb (ix2 p k)) = V m c main_v36 (ix2 n k)
  refine congrArg _ (funext fun a => Fin.ext ?_)
  match a with
  | ⟨0, _⟩ => show win0_2.index t (0 : Fin 2) * 5000 + 1 * p.val = n.val; omega
  | ⟨1, _⟩ => show win0_2.index t (1 : Fin 2) * 64 + 1 * k.val = k.val; omega

/-- Window 1's block at point t, at (p, k), is its array at row 5000·t + p. -/
theorem blk1 (c : Dev nD) (t : Fin cfg0.N) (p : Fin 5000) (k : Fin 1) (n : Fin 100000) (hn : n.val = t.val * 5000 + p.val) :
    iblk m c 1 t (ix2 p k) = V m c main_v19 (ix2 n k) := by
  have hf := idx_facts t
  show V m c main_v19 (((cfg0.win 1).blk t).view.emb (ix2 p k)) = V m c main_v19 (ix2 n k)
  refine congrArg _ (funext fun a => Fin.ext ?_)
  match a with
  | ⟨0, _⟩ => show win0_1.index t (0 : Fin 2) * 5000 + 1 * p.val = n.val; omega
  | ⟨1, _⟩ => show win0_1.index t (1 : Fin 2) * 1 + 1 * k.val = k.val; omega

/-- Window 3's block at point t, at (p, k), is its array at row 5000·t + p. -/
theorem blk3 (c : Dev nD) (t : Fin cfg0.N) (p : Fin 5000) (k : Fin 1) (n : Fin 100000) (hn : n.val = t.val * 5000 + p.val) :
    iblk m c 3 t (ix2 p k) = V m c main_v37 (ix2 n k) := by
  have hf := idx_facts t
  show V m c main_v37 (((cfg0.win 3).blk t).view.emb (ix2 p k)) = V m c main_v37 (ix2 n k)
  refine congrArg _ (funext fun a => Fin.ext ?_)
  match a with
  | ⟨0, _⟩ => show win0_3.index t (0 : Fin 2) * 5000 + 1 * p.val = n.val; omega
  | ⟨1, _⟩ => show win0_3.index t (1 : Fin 2) * 1 + 1 * k.val = k.val; omega

/-- Window 4's block at every point is its whole array. -/
theorem blk4 (c : Dev nD) (t : Fin cfg0.N) (p : Fin 64) (k : Fin 64) :
    iblk m c 4 t (ix2 p k) = V m c main_arg2 (ix2 p k) := by
  have hf := idx_facts t
  show V m c main_arg2 (((cfg0.win 4).blk t).view.emb (ix2 p k)) = V m c main_arg2 (ix2 p k)
  refine congrArg _ (funext fun a => Fin.ext ?_)
  match a with
  | ⟨0, _⟩ => show win0_4.index t (0 : Fin 2) * 64 + 1 * p.val = p.val; omega
  | ⟨1, _⟩ => show win0_4.index t (1 : Fin 2) * 64 + 1 * k.val = k.val; omega

/-- Window 6's block at every point is its whole array. -/
theorem blk6 (c : Dev nD) (t : Fin cfg0.N) (p : Fin 64) (k : Fin 64) :
    iblk m c 6 t (ix2 p k) = V m c main_arg4 (ix2 p k) := by
  have hf := idx_facts t
  show V m c main_arg4 (((cfg0.win 6).blk t).view.emb (ix2 p k)) = V m c main_arg4 (ix2 p k)
  refine congrArg _ (funext fun a => Fin.ext ?_)
  match a with
  | ⟨0, _⟩ => show win0_6.index t (0 : Fin 2) * 64 + 1 * p.val = p.val; omega
  | ⟨1, _⟩ => show win0_6.index t (1 : Fin 2) * 64 + 1 * k.val = k.val; omega

/-- Window 8's block at every point is its whole array. -/
theorem blk8 (c : Dev nD) (t : Fin cfg0.N) (p : Fin 64) (k : Fin 64) :
    iblk m c 8 t (ix2 p k) = V m c main_v41 (ix2 p k) := by
  have hf := idx_facts t
  show V m c main_v41 (((cfg0.win 8).blk t).view.emb (ix2 p k)) = V m c main_v41 (ix2 p k)
  refine congrArg _ (funext fun a => Fin.ext ?_)
  match a with
  | ⟨0, _⟩ => show win0_8.index t (0 : Fin 2) * 64 + 1 * p.val = p.val; omega
  | ⟨1, _⟩ => show win0_8.index t (1 : Fin 2) * 64 + 1 * k.val = k.val; omega

/-- Window 9's block at every point is its whole array. -/
theorem blk9 (c : Dev nD) (t : Fin cfg0.N) (p : Fin 64) (k : Fin 64) :
    iblk m c 9 t (ix2 p k) = V m c main_v42 (ix2 p k) := by
  have hf := idx_facts t
  show V m c main_v42 (((cfg0.win 9).blk t).view.emb (ix2 p k)) = V m c main_v42 (ix2 p k)
  refine congrArg _ (funext fun a => Fin.ext ?_)
  match a with
  | ⟨0, _⟩ => show win0_9.index t (0 : Fin 2) * 64 + 1 * p.val = p.val; omega
  | ⟨1, _⟩ => show win0_9.index t (1 : Fin 2) * 64 + 1 * k.val = k.val; omega

/-- Window 5's block at every point is its whole array. -/
theorem blk5 (c : Dev nD) (t : Fin cfg0.N) (p : Fin 1) (k : Fin 64) :
    iblk m c 5 t (ix2 p k) = V m c main_v38 (ix2 p k) := by
  have hf := idx_facts t
  show V m c main_v38 (((cfg0.win 5).blk t).view.emb (ix2 p k)) = V m c main_v38 (ix2 p k)
  refine congrArg _ (funext fun a => Fin.ext ?_)
  match a with
  | ⟨0, _⟩ => show win0_5.index t (0 : Fin 2) * 1 + 1 * p.val = p.val; omega
  | ⟨1, _⟩ => show win0_5.index t (1 : Fin 2) * 64 + 1 * k.val = k.val; omega

/-- Window 7's block at every point is its whole array. -/
theorem blk7 (c : Dev nD) (t : Fin cfg0.N) (p : Fin 1) (k : Fin 64) :
    iblk m c 7 t (ix2 p k) = V m c main_v39 (ix2 p k) := by
  have hf := idx_facts t
  show V m c main_v39 (((cfg0.win 7).blk t).view.emb (ix2 p k)) = V m c main_v39 (ix2 p k)
  refine congrArg _ (funext fun a => Fin.ext ?_)
  match a with
  | ⟨0, _⟩ => show win0_7.index t (0 : Fin 2) * 1 + 1 * p.val = p.val; omega
  | ⟨1, _⟩ => show win0_7.index t (1 : Fin 2) * 64 + 1 * k.val = k.val; omega

/-- Window 10's block at every point is its whole array. -/
theorem blk10 (c : Dev nD) (t : Fin cfg0.N) (p : Fin 1) (k : Fin 64) :
    iblk m c 10 t (ix2 p k) = V m c main_v40 (ix2 p k) := by
  have hf := idx_facts t
  show V m c main_v40 (((cfg0.win 10).blk t).view.emb (ix2 p k)) = V m c main_v40 (ix2 p k)
  refine congrArg _ (funext fun a => Fin.ext ?_)
  match a with
  | ⟨0, _⟩ => show win0_10.index t (0 : Fin 2) * 1 + 1 * p.val = p.val; omega
  | ⟨1, _⟩ => show win0_10.index t (1 : Fin 2) * 64 + 1 * k.val = k.val; omega

/-- The array the run leaves, from the arrays the region finds. -/
abbrev result (c : Dev nD) : S100000x64.Idx → EReal :=
  tileArr (V m c main_v15) (V m c main_v19) (V m c main_v36) (V m c main_v37) (V m c main_arg2) (V m c main_v38) (V m c main_arg4) (V m c main_v39) (V m c main_v41) (V m c main_v42) (V m c main_v40)

/-- WHAT POINT t WRITES BACK is block t of that one function of the arrays the region finds. -/
theorem flushed_eq (c : Dev nD) (t : Fin cfg0.N) :
    (dats m 0 c).flushed 11 t = ((cfg0.win 11).blk t).view.read (Elt Ideal) (result m c) := by
  rw [flushed11]
  unfold out0_11
  rw [View.canon_unit_zero hz]
  simp only [View.ld_unit_zero (S := S5000x64) hz, View.ld_unit_zero (S := S5000x1) hz, View.ld_unit_zero (S := S64x64) hz,
    View.ld_unit_zero (S := S1x64) hz]
  funext j
  have hf := idx_facts t
  have hN : cfg0.N = 20 := N_0
  have ht : t.val < 20 := by have := t.isLt; omega
  have hp : (j 0).val < 5000 := (j 0).isLt
  have ho : (j 1).val < 64 := (j 1).isLt
  obtain ⟨p, hpv⟩ : ∃ p : Fin 5000, p.val = (j 0).val := ⟨⟨(j 0).val, hp⟩, rfl⟩
  obtain ⟨o, hov⟩ : ∃ o : Fin 64, o.val = (j 1).val := ⟨⟨(j 1).val, ho⟩, rfl⟩
  obtain ⟨n, hn⟩ : ∃ n : Fin 100000, n.val = t.val * 5000 + p.val := ⟨⟨t.val * 5000 + p.val, by have := p.isLt; omega⟩, rfl⟩
  have hy : (cfg0.win 11).xinj (grid0.coords t) j = ix2 p o :=
    funext fun a => Fin.ext (by
      match a with
      | ⟨0, _⟩ => exact hpv.symm
      | ⟨1, _⟩ => exact hov.symm)
  have hi : ((cfg0.win 11).blk t).view.emb j = ix2 n o :=
    funext fun a => Fin.ext (by
      match a with
      | ⟨0, _⟩ => show win0_11.index t (0 : Fin 2) * 5000 + 1 * (j 0).val = n.val; omega
      | ⟨1, _⟩ => show win0_11.index t (1 : Fin 2) * 64 + 1 * (j 1).val = o.val; omega)
  show k0_pay1 (F := Ideal) _ _ _ _ _ _ _ ((cfg0.win 11).xinj (grid0.coords t) j) = result m c (((cfg0.win 11).blk t).view.emb j)
  rw [hy, hi]
  refine (Tile.tile_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p o).trans ?_
  show rowOut _ _ _ _ _ _ _ _ _ _ _ o = tileFn (V m c main_v15) (V m c main_v19) (V m c main_v36) (V m c main_v37) (V m c main_arg2) (V m c main_v38) (V m c main_arg4) (V m c main_v39) (V m c main_v41) (V m c main_v42) (V m c main_v40) n o
  unfold tileFn
  refine rowOut_congr o ?_ ?_ ?_ ?_ ?_ ?_ ?_ ?_ ?_ ?_ ?_
  · exact funext fun k => blk0 m c t p k n hn
  · exact blk1 m c t p (0 : Fin 1) n hn
  · exact funext fun k => blk2 m c t p k n hn
  · exact blk3 m c t p (0 : Fin 1) n hn
  · exact funext fun a => funext fun k => blk4 m c t a k
  · exact funext fun a => blk5 m c t (0 : Fin 1) a
  · exact funext fun a => funext fun k => blk6 m c t a k
  · exact funext fun a => blk7 m c t (0 : Fin 1) a
  · exact funext fun a => funext fun k => blk8 m c t a k
  · exact funext fun a => funext fun k => blk9 m c t a k
  · exact funext fun a => blk10 m c t (0 : Fin 1) a

/-- An index of the array is in point t's block iff each coordinate is in the block's range on its axis. -/
theorem mem_blk (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v43).slice (win0_11.rect t)).set ↔ _
  rw [View.set_slice_whole, Rect.mem_set_unit]
  exact Iff.rfl

/-- Every row lies in some point's block: row n in block n / 5000. -/
theorem cover (i : S100000x64.Idx) : ∃ t : Fin cfg0.N, (cfg0.win 11).flush t = true ∧ i ∈ ((cfg0.win 11).blk t).view.set := by
  have hi0 : (i 0).val < 100000 := (i 0).isLt
  have hi1 : (i 1).val < 64 := (i 1).isLt
  have hN : grid0.N = 20 := N_0
  have hlt : (i 0).val / 5000 < grid0.N := by omega
  refine ⟨⟨(i 0).val / 5000, hlt⟩, flush0_11 _, ?_⟩
  rw [mem_blk]
  have hf := idx_facts ⟨(i 0).val / 5000, hlt⟩
  intro a
  match a with
  | ⟨0, _⟩ =>
    show win0_11.index ⟨(i 0).val / 5000, hlt⟩ (0 : Fin 2) * 5000 ≤ (i 0).val ∧ (i 0).val < win0_11.index ⟨(i 0).val / 5000, hlt⟩ (0 : Fin 2) * 5000 + 5000
    have e : win0_11.index ⟨(i 0).val / 5000, hlt⟩ (0 : Fin 2) = (i 0).val / 5000 := hf.2.2.2.2.2.2.2.2.2.2.2.2.2.2.2.2.2.2.2.2.2.2.1
    omega
  | ⟨1, _⟩ =>
    show win0_11.index ⟨(i 0).val / 5000, hlt⟩ (1 : Fin 2) * 64 ≤ (i 1).val ∧ (i 1).val < win0_11.index ⟨(i 0).val / 5000, hlt⟩ (1 : Fin 2) * 64 + 64
    have e : win0_11.index ⟨(i 0).val / 5000, hlt⟩ (1 : Fin 2) = 0 := hf.2.2.2.2.2.2.2.2.2.2.2.2.2.2.2.2.2.2.2.2.2.2.2
    omega

/-- THE ARRAY after the run is that function of the arrays the region finds. -/
theorem final (c : Dev nD) : (dats m 0 c).arrAt 11 cfg0.N = result m c :=
  (dats m 0 c).arrAt_eq_of_cover 11 (result m c) (fun t _ => flushed_eq m c t) cover

/-- The kernel program's run: it terminates, the result array holds `result`, the arguments are unchanged. -/
theorem run : θ_run defs (onTc (τ := τ) (main (F := Ideal))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Fused.Blocks

end
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.EdgeSpec.lean ====
/-
  The edge aggregation of a graph convolution, read node by node, on the extended reals.

  The edge list is a [2, 800000] array of 32-bit words: row 0 holds each edge's source node and row 1 its target node.
  A target word is wrapped once if negative (100000 is added) and then, read signed, clamped into [0, 99999]: that is
  the row of the feature matrix the edge gathers. A source word is read signed and NOT clamped: an edge whose source
  is not a node number contributes nothing. For a family of edges (an injection of E positions into the 800000),
    aggOver  n d  =  Σ over the positions e whose edge has source n of  x(target row of that edge, d),
    cntOver  n    =  Σ over the same positions of 1.
  The first 400000 edges, the last 400000 and all 800000 are the three families used; the law proved here is that the
  sums over all edges are the sums over the first half plus the sums over the second half. It holds in any additive
  commutative monoid, so no finiteness of the features is needed.
-/
import proofs.«123001_j5222680232055_2_alg».proof.Proof.FusedSpec
import proofs.«123001_j5222680232055_2_alg».proof.Proof.LibSplitSum
import Idealize.ShloMosaic.PureOps.Ideal.Laws

noncomputable section

open scoped BigOperators

namespace Cert.Fused

open Idealize.ShloMosaic Idealize.ShloMosaic.ValueIdx

/-- The float32 word of zero, the value both programs start an aggregation from. -/
def zero : EReal := Ideal.ofBits .f32 0x00000000#32

/-- Position e of the first half, and of the second half, of the edge list. -/
def lo (e : Fin 400000) : Fin 800000 := ⟨e.val, by have := e.isLt; omega⟩
def hi (e : Fin 400000) : Fin 800000 := ⟨400000 + e.val, by have := e.isLt; omega⟩

/-- The source word of edge j. -/
def src (ei : (⟨2, ![2, 800000]⟩ : Shape).Idx → BitVec 32) (j : Fin 800000) : BitVec 32 := ei (ix2 (0 : Fin 2) j)

/-- The target word of edge j, wrapped once if negative. -/
def tgt (ei : (⟨2, ![2, 800000]⟩ : Shape).Idx → BitVec 32) (j : Fin 800000) : BitVec 32 :=
  Scalar.select (IntOp.cmpi .slt (ei (ix2 (1 : Fin 2) j)) 0#32) (IntOp.addi (ei (ix2 (1 : Fin 2) j)) 100000#32) (ei (ix2 (1 : Fin 2) j))

/-- The row of the feature matrix edge j gathers: its wrapped target, read signed, clamped into [0, 99999]. -/
def tgtRow (ei : (⟨2, ![2, 800000]⟩ : Shape).Idx → BitVec 32) (j : Fin 800000) : Fin 100000 :=
  ⟨min (tgt ei j).toInt.toNat (100000 - 1), by omega⟩

/-- The summed neighbour features of node n, lane d, over a family of edges. -/
def aggOver {E : ℕ} (emb : Fin E → Fin 800000) (x : (⟨2, ![100000, 64]⟩ : Shape).Idx → EReal)
    (ei : (⟨2, ![2, 800000]⟩ : Shape).Idx → BitVec 32) (n : Fin 100000) (d : Fin 64) : EReal :=
  ∑ e ∈ Finset.univ.filter (fun e : Fin E => (src ei (emb e)).toInt = (n.val : Int)), x (ix2 (tgtRow ei (emb e)) d)

/-- The number of edges of a family whose source is node n, as a sum of ones. -/
def cntOver {E : ℕ} (emb : Fin E → Fin 800000) (ei : (⟨2, ![2, 800000]⟩ : Shape).Idx → BitVec 32) (n : Fin 100000) : EReal :=
  ∑ e ∈ Finset.univ.filter (fun e : Fin E => (src ei (emb e)).toInt = (n.val : Int)), one

/-- A sum over the positions of all 800000 edges that satisfy a condition is the sum over the first half's plus the sum
    over the second half's. -/
theorem filter_sum_halves {M : Type*} [AddCommMonoid M] (P : Fin 800000 → Prop) [DecidablePred P] (f : Fin 800000 → M) :
    ∑ j ∈ Finset.univ.filter P, f j
      = ∑ e ∈ Finset.univ.filter (fun e : Fin 400000 => P (lo e)), f (lo e)
        + ∑ e ∈ Finset.univ.filter (fun e : Fin 400000 => P (hi e)), f (hi e) := by
  rw [Finset.sum_filter, Finset.sum_filter, Finset.sum_filter]
  exact SplitSum.sum_eq_add_of_blocks (K₁ := 400000) (K₂ := 400000) rfl (fun j => if P j then f j else 0)
    (fun e => if P (lo e) then f (lo e) else 0) (fun e => if P (hi e) then f (hi e) else 0) (fun _ => rfl) (fun _ => rfl)

/-- The aggregation over all edges is the first half's plus the second half's. -/
theorem aggOver_all (x : (⟨2, ![100000, 64]⟩ : Shape).Idx → EReal) (ei : (⟨2, ![2, 800000]⟩ : Shape).Idx → BitVec 32)
    (n : Fin 100000) (d : Fin 64) : aggOver id x ei n d = aggOver lo x ei n d + aggOver hi x ei n d :=
  filter_sum_halves (fun j => (src ei j).toInt = (n.val : Int)) (fun j => x (ix2 (tgtRow ei j) d))

/-- The count over all edges is the first half's plus the second half's. -/
theorem cntOver_all (ei : (⟨2, ![2, 800000]⟩ : Shape).Idx → BitVec 32) (n : Fin 100000) :
    cntOver id ei n = cntOver lo ei n + cntOver hi ei n :=
  filter_sum_halves (fun j => (src ei j).toInt = (n.val : Int)) (fun _ => one)

/-- The word of zero is the extended real zero, so an aggregation started from it twice is one started from it once. -/
theorem zero_add_halves (a b : EReal) : (zero + a) + (zero + b) = zero + (a + b) := by
  unfold zero
  rw [Ideal.ofBits_zero_f32, zero_add, zero_add, zero_add]

end Cert.Fused

end
-- ==== Proof.LibRows.lean ====
/-
  Row gather and row scatter-add of a matrix, read at an index.

`x[idx]` of a matrix `x : [N, W]` at a column of row numbers `idx : [E, 1]` is StableHLO's gather with offset axis 1,
collapsed axis 0, start index map [0], index vector axis 1 and slices `[1, W]`: result element `(e, k)` is `x` at row
`idx[e, 0]` (read signed and clamped into `[0, N − 1]`), lane `k`.  The accumulating scatter with update window axis 1,
inserted window axis 0, scatter-to-operand map [0] and index vector axis 1 sends update element `(e, k)` to operand
element `(idx[e, 0], k)` when that row number, read signed and NOT clamped, lies in `[0, N)`, and drops it otherwise;
over the extended reals the scattered array at `(i, j)` is therefore the operand's element plus the sum, over the
update rows `e` whose row number is `i`, of the update's element `(e, j)`.
-/
import Idealize.ShloMosaic.PureOps.Ideal
import Idealize.ShloMosaic.Lib.ValueIdx

noncomputable section

open scoped BigOperators

namespace Cert.LibRows

open Idealize.ShloMosaic Idealize.ShloMosaic.ValueIdx

/-! ## The gather of rows -/

section Gather
variable {α : Type}

/-- The dimension numbers of a row gather: operand `[N, W]`, row numbers `[E, 1]`, result `[E, W]`. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the gather reads for result row `e`: the row number `idx[e, 0]`, signed, clamped into `[0, N − 1]`. -/
def gatherRow {N E w : Nat} (hN : 0 < N) (idx : IVec ⟨2, ![E, 1]⟩ w) (e : Fin E) : Fin N :=
  ⟨min (idx (ix2 e 0)).toInt.toNat (N - 1), by omega⟩

/-- THE ROW GATHER READ AT `(e, k)`: the operand at the clamped row, lane `k`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N W E wf) x idx (ix2 e k) = x (ix2 (gatherRow hN idx e) k) := by
  unfold Host.gather
  congr 1
  funext a
  refine Fin.ext ?_
  match a with
  | ⟨0, _⟩ =>
    show (rowGatherDims N W E wf).start (ix2 e k) idx 0 + (rowGatherDims N W E wf).batchCoord (ix2 e k) 0
        + (rowGatherDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e k) ⟨List.idxOf (0 : Fin 2) (rowGatherDims N W E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N W E wf).start (ix2 e k) idx 1 + (rowGatherDims N W E wf).batchCoord (ix2 e k) 1
        + (rowGatherDims N W E wf).offCoord (ix2 e k) 1 = k.val
    rw [GatherDims.batchCoord_eq_zero _ _ _ List.not_mem_nil]
    have hst : (rowGatherDims N W E wf).start (ix2 e k) idx 1 = 0 := by
      unfold GatherDims.start
      rw [dif_neg (show (1 : Fin 2) ∉ (rowGatherDims N W E wf).startIndexMap from fun h => absurd (List.mem_singleton.mp h) (show (1 : Fin 2) ≠ 0 by decide))]
    rw [hst]
    simp only [Nat.add_zero, Nat.zero_add]
    rfl

end Gather

/-! ## The accumulating scatter of rows -/

section Scatter

/-- The dimension numbers of a row scatter: operand `[N, W]`, row numbers `[E, 1]`, updates `[E, W]`. -/
abbrev rowScatterDims (N W E : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- An operand axis is a window axis exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

variable {N W E w : Nat} (wf : ScatterDims.WF ⟨2, ![N, W]⟩ ⟨2, ![E, 1]⟩ ⟨2, ![E, W]⟩ [1] [0] [0] 1)

theorem start0 (idx : IVec ⟨2, ![E, 1]⟩ w) (e : Fin E) (k : Fin W) :
    (rowScatterDims N W E wf).start (ix2 e k) idx 0 = (idx (ix2 e 0)).toInt := by
  unfold ScatterDims.start
  rw [dif_pos (show (0 : Fin 2) ∈ (rowScatterDims N W E wf).scatterDimsToOperandDims from List.mem_singleton.mpr rfl)]
  have hsi : (rowScatterDims N W E wf).siIdx (ix2 e k) ⟨List.idxOf (0 : Fin 2) (rowScatterDims N W E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start1 (idx : IVec ⟨2, ![E, 1]⟩ w) (e : Fin E) (k : Fin W) :
    (rowScatterDims N W E wf).start (ix2 e k) idx 1 = 0 := by
  unfold ScatterDims.start
  rw [dif_neg (show (1 : Fin 2) ∉ (rowScatterDims N W E wf).scatterDimsToOperandDims from fun h => absurd (List.mem_singleton.mp h) (show (1 : Fin 2) ≠ 0 by decide))]

theorem window0 (e : Fin E) (k : Fin W) : (rowScatterDims N W E wf).window (ix2 e k) 0 = 0 := by
  unfold ScatterDims.window
  rw [dif_neg (show (0 : Fin 2) ∉ (rowScatterDims N W E wf).sKept from fun h => ((mem_sKept _ _).mp h) (List.mem_singleton.mpr rfl))]

theorem window1 (e : Fin E) (k : Fin W) : (rowScatterDims N W E wf).window (ix2 e k) 1 = k.val := by
  unfold ScatterDims.window
  rw [dif_pos (show (1 : Fin 2) ∈ (rowScatterDims N W E wf).sKept from (mem_sKept _ _).mpr fun h => absurd (List.mem_singleton.mp h) (show (1 : Fin 2) ≠ 0 by decide))]
  rfl

/-- Update element `(e, k)` lands on operand element `(i, j)` exactly when row `e`'s row number, read signed,
    is `i`, and the lanes agree. -/
theorem resultIdx?_rows_iff (idx : IVec ⟨2, ![E, 1]⟩ w) (e : Fin E) (k : Fin W) (i : Fin N) (j : Fin W) :
    (rowScatterDims N W E wf).resultIdx? (ix2 e k) idx = some (ix2 i j)
      ↔ (idx (ix2 e 0)).toInt = (i.val : Int) ∧ k = j := by
  have hs0 := start0 wf idx e k
  have hs1 := start1 wf idx e k
  have hw0 := window0 wf e k
  have hw1 := window1 wf e k
  unfold ScatterDims.resultIdx?
  split
  · rename_i h
    rw [Option.some.injEq]
    constructor
    · intro hf
      have h0 := congrArg (fun f => (f 0).val) hf
      have h1 := congrArg (fun f => (f 1).val) hf
      simp only [hs0, hs1, hw0, hw1] at h0 h1
      have hh := (h 0).1
      rw [hs0, hw0] at hh
      refine ⟨?_, Fin.ext ?_⟩
      · have : ((idx (ix2 e 0)).toInt + ((0 : Nat) : Int)).toNat = i.val := h0
        omega
      · have : ((0 : Int) + ((k.val : Nat) : Int)).toNat = j.val := h1
        omega
    · rintro ⟨hi, rfl⟩
      funext a
      refine Fin.ext ?_
      match a with
      | ⟨0, _⟩ =>
        show ((rowScatterDims N W E wf).start (ix2 e k) idx 0 + ((rowScatterDims N W E wf).window (ix2 e k) 0 : Nat)).toNat = i.val
        rw [hs0, hw0, hi]; simp
      | ⟨1, _⟩ =>
        show ((rowScatterDims N W E wf).start (ix2 e k) idx 1 + ((rowScatterDims N W E wf).window (ix2 e k) 1 : Nat)).toNat = k.val
        rw [hs1, hw1]; simp
  · rename_i h
    constructor
    · intro hf; exact absurd hf (by simp)
    · rintro ⟨hi, rfl⟩
      exfalso
      apply h
      intro a
      match a with
      | ⟨0, _⟩ =>
        show 0 ≤ (rowScatterDims N W E wf).start (ix2 e k) idx 0 + ((rowScatterDims N W E wf).window (ix2 e k) 0 : Nat)
          ∧ (rowScatterDims N W E wf).start (ix2 e k) idx 0 + ((rowScatterDims N W E wf).window (ix2 e k) 0 : Nat) < (N : Int)
        rw [hs0, hw0, hi]
        have := i.isLt
        constructor <;> omega
      | ⟨1, _⟩ =>
        show 0 ≤ (rowScatterDims N W E wf).start (ix2 e k) idx 1 + ((rowScatterDims N W E wf).window (ix2 e k) 1 : Nat)
          ∧ (rowScatterDims N W E wf).start (ix2 e k) idx 1 + ((rowScatterDims N W E wf).window (ix2 e k) 1 : Nat) < (W : Int)
        rw [hs1, hw1]
        have := k.isLt
        constructor <;> omega

/-- THE ROW SCATTER-ADD READ AT `(i, j)` over the extended reals: the operand's element plus the sum of the update's
    lane `j` over the update rows whose row number is `i`. -/
theorem scatterAdd_rows_apply (x : (⟨2, ![N, W]⟩ : Shape).Idx → EReal) (idx : IVec ⟨2, ![E, 1]⟩ w)
    (U : (⟨2, ![E, W]⟩ : Shape).Idx → EReal) (i : Fin N) (j : Fin W) :
    Host.scatterAdd (F := Ideal) (φ := .f32) (rowScatterDims N W E wf) x idx U (ix2 i j)
      = x (ix2 i j) + ∑ e ∈ Finset.univ.filter (fun e : Fin E => (idx (ix2 e 0)).toInt = (i.val : Int)), U (ix2 e j) := by
  show Ideal.hostScatterAdd (rowScatterDims N W E wf) x idx U (ix2 i j) = _
  unfold Ideal.hostScatterAdd
  congr 1
  refine Finset.sum_bij (fun u _ => (u 0 : Fin E)) ?_ ?_ ?_ ?_
  · intro u hu
    rw [Finset.mem_filter] at hu
    rw [eq_ix2 u] at hu
    exact Finset.mem_filter.mpr ⟨Finset.mem_univ _, ((resultIdx?_rows_iff wf idx _ _ i j).mp hu.2).1⟩
  · intro u hu u' hu' h
    rw [Finset.mem_filter] at hu hu'
    have e1 := hu.2; have e2 := hu'.2
    rw [eq_ix2 u] at e1; rw [eq_ix2 u'] at e2
    have k1 := ((resultIdx?_rows_iff wf idx _ _ i j).mp e1).2
    have k2 := ((resultIdx?_rows_iff wf idx _ _ i j).mp e2).2
    rw [eq_ix2 u, eq_ix2 u']
    have h' : (u 0 : Fin E) = (u' 0 : Fin E) := h
    rw [h', show (u 1 : Fin W) = (u' 1 : Fin W) from k1.trans k2.symm]
  · intro e he
    rw [Finset.mem_filter] at he
    refine ⟨ix2 e j, ?_, rfl⟩
    rw [Finset.mem_filter]
    exact ⟨Finset.mem_univ _, (resultIdx?_rows_iff wf idx e j i j).mpr ⟨he.2, rfl⟩⟩
  · intro u hu
    rw [Finset.mem_filter] at hu
    have e1 := hu.2
    rw [eq_ix2 u] at e1
    have k1 := ((resultIdx?_rows_iff wf idx _ _ i j).mp e1).2
    conv_lhs => rw [eq_ix2 u]
    rw [show (u 1 : Fin W) = j from k1]
    rfl

end Scatter

end Cert.LibRows

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.HostPrefix.lean ====
/-
  The host operations that run before the fused region, read at an index.
-/
import proofs.«123001_j5222680232055_2_alg».proof.Proof.Gen.KernelIdeal.Frame
import proofs.«123001_j5222680232055_2_alg».proof.Proof.FusedSpec
import proofs.«123001_j5222680232055_2_alg».proof.Proof.EdgeSpec
import proofs.«123001_j5222680232055_2_alg».proof.Proof.LibRows
import proofs.«123001_j5222680232055_2_alg».proof.Proof.LibJoinLayout
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Fused.Host

open Cert.KernelIdeal Cert.KernelIdeal.Gen Idealize.ShloMosaic Idealize.ShloMosaic.TcCoe Idealize.ShloMosaic.ValueIdx Idealize.SL.Sem Cert.Fused
open Idealize.ShloMosaic.StableHlo

variable (m : (ℓ : Loc nD τ sig) → Buf (Elt Ideal) ℓ) (c : Dev nD)

/-- The first bias as the region finds it: the argument reshaped from [64] to [1, 64]. -/
theorem host_b1 (j : Fin 64) :
    (V m c main_v38 : S1x64.Idx → EReal) (ix2 (0 : Fin 1) j)
      = (m ((c : Thread nD τ).loc main_arg3) : S64.Idx → EReal) (ix1 j) := by
  have e : (V m c main_v38 : S1x64.Idx → EReal)
      = shapeCast S1x64 (m ((c : Thread nD τ).loc main_arg3) : S64.Idx → EReal) shapeCasts_S64_S1x64 := by
    dsimp only [Gen.V, Gen.hostOps0]; after_results; rfl
  rw [e]
  exact shapeCast_a_1a_apply _ _ _ _

/-- The second bias as the region finds it. -/
theorem host_b2 (j : Fin 64) :
    (V m c main_v39 : S1x64.Idx → EReal) (ix2 (0 : Fin 1) j)
      = (m ((c : Thread nD τ).loc main_arg5) : S64.Idx → EReal) (ix1 j) := by
  have e : (V m c main_v39 : S1x64.Idx → EReal)
      = shapeCast S1x64 (m ((c : Thread nD τ).loc main_arg5) : S64.Idx → EReal) shapeCasts_S64_S1x64 := by
    dsimp only [Gen.V, Gen.hostOps0]; after_results; rfl
  rw [e]
  exact shapeCast_a_1a_apply _ _ _ _

/-- The gate's bias as the region finds it. -/
theorem host_bg (j : Fin 64) :
    (V m c main_v40 : S1x64.Idx → EReal) (ix2 (0 : Fin 1) j)
      = (m ((c : Thread nD τ).loc main_arg7) : S64.Idx → EReal) (ix1 j) := by
  have e : (V m c main_v40 : S1x64.Idx → EReal)
      = shapeCast S1x64 (m ((c : Thread nD τ).loc main_arg7) : S64.Idx → EReal) shapeCasts_S64_S1x64 := by
    dsimp only [Gen.V, Gen.hostOps0]; after_results; rfl
  rw [e]
  exact shapeCast_a_1a_apply _ _ _ _

/-- The gate's weights on the first scale: columns 0 to 63 of the [64, 128] argument. -/
theorem host_wA (j k : Fin 64) :
    (V m c main_v41 : S64x64.Idx → EReal) (ix2 j k)
      = (m ((c : Thread nD τ).loc main_arg6) : S64x128.Idx → EReal) (ix2 j (colA k)) := by
  have e : (V m c main_v41 : S64x64.Idx → EReal)
      = extractStridedSlice S64x64 ![0, 0] (m ((c : Thread nD τ).loc main_arg6) : S64x128.Idx → EReal) slices_S64x128_S64x64_0_0 := by
    dsimp only [Gen.V, Gen.hostOps0]; after_results
  rw [e]
  exact slice2_axis1_apply 0 _ _ j k (colA k) (by show k.val = 0 + k.val; omega)

/-- The gate's weights on the second scale: columns 64 to 127 of the [64, 128] argument. -/
theorem host_wB (j k : Fin 64) :
    (V m c main_v42 : S64x64.Idx → EReal) (ix2 j k)
      = (m ((c : Thread nD τ).loc main_arg6) : S64x128.Idx → EReal) (ix2 j (colB k)) := by
  have e : (V m c main_v42 : S64x64.Idx → EReal)
      = extractStridedSlice S64x64 ![0, 64] (m ((c : Thread nD τ).loc main_arg6) : S64x128.Idx → EReal) slices_S64x128_S64x64_0_64 := by
    dsimp only [Gen.V, Gen.hostOps0]; after_results
  rw [e]
  exact slice2_axis1_apply 64 _ _ j k (colB k) rfl

/-! ## The edge list's columns

Row r of the [2, 800000] edge list is cut out, flattened to 800000 words, cut to one half (from position `off`) and
stood up as a [400000, 1] column; the column's entry e is the edge list's word (r, off + e). -/

/-- Half of a vector of 800000 words, from position `off`, read at e. -/
theorem half_read (w : S800000.Idx → BitVec 32) (off : ℕ) (hs : S800000.Slices ![off] S400000)
    (e : Fin 400000) (p : Fin 800000) (hp : p.val = off + e.val) :
    extractStridedSlice S400000 ![off] w hs (ix1 e) = w (ix1 p) :=
  extractStridedSlice_apply _ _ _ _ _ (fun a => by
    match a with
    | ⟨0, _⟩ => exact hp)

/-- Row r of the edge list, flattened, read at p. -/
theorem row_read (ei : S2x800000.Idx → BitVec 32) (r : ℕ) (hs : S2x800000.Slices ![r, 0] S1x800000)
    (hc : S1x800000.ShapeCasts S800000) (q : Fin 2) (hq : q.val = r) (p : Fin 800000) :
    shapeCast S800000 (extractStridedSlice S1x800000 ![r, 0] ei hs) hc (ix1 p) = ei (ix2 q p) := by
  refine (shapeCast_1a_a_apply _ hc p).trans ?_
  exact extractStridedSlice_apply _ _ _ _ _ (fun a => by
    match a with
    | ⟨0, _⟩ => show q.val = r + 0; omega
    | ⟨1, _⟩ => show p.val = 0 + p.val; omega)

/-- A vector of 400000 entries stood up as a column, read at (e, 0). -/
theorem col_read {α : Type} (v : S400000.Idx → α) (h : S400000.BroadcastsInDim S400000x1 (![0] : Fin 1 → Fin 2))
    (e : Fin 400000) (u : Fin 1) :
    broadcastInDim S400000x1 ![0] h v (ix2 e u) = v (ix1 e) :=
  broadcastInDim_apply _ h v _ _ (fun a => by
    match a with
    | ⟨0, _⟩ => show e.val = if (400000 : ℕ) = 1 then 0 else e.val; rw [if_neg (by decide)])

/-- Row 0 of the edge list (the source words), its half from position `off`, as a column: the program's own term. -/
abbrev srcColTerm (ei : S2x800000.Idx → BitVec 32) (off : ℕ) (hs : S800000.Slices ![off] S400000) : S400000x1.Idx → BitVec 32 :=
  broadcastInDim S400000x1 ![0] bcast_S400000_S400000x1_0
    (extractStridedSlice S400000 ![off]
      (shapeCast S800000 (extractStridedSlice S1x800000 ![0, 0] ei slices_S2x800000_S1x800000_0_0) shapeCasts_S1x800000_S800000) hs)

/-- Row 1 of the edge list (the target words), its half from position `off`, each word wrapped once if negative, as a
    column: the program's own term. -/
abbrev tgtColTerm (ei : S2x800000.Idx → BitVec 32) (off : ℕ) (hs : S800000.Slices ![off] S400000) : S400000x1.Idx → BitVec 32 :=
  broadcastInDim S400000x1 ![0] bcast_S400000_S400000x1_0
        (select
          (cmpi .slt
            (extractStridedSlice S400000 ![off]
              (shapeCast S800000 (extractStridedSlice S1x800000 ![1, 0] ei slices_S2x800000_S1x800000_1_0) shapeCasts_S1x800000_S800000) hs)
            (broadcastInDim S400000 ![] bcast_S_S400000 (constantI S_ 32 0#32)))
          (addi
            (extractStridedSlice S400000 ![off]
              (shapeCast S800000 (extractStridedSlice S1x800000 ![1, 0] ei slices_S2x800000_S1x800000_1_0) shapeCasts_S1x800000_S800000) hs)
            (broadcastInDim S400000 ![] bcast_S_S400000 (constantI S_ 32 100000#32)))
          (extractStridedSlice S400000 ![off]
            (shapeCast S800000 (extractStridedSlice S1x800000 ![1, 0] ei slices_S2x800000_S1x800000_1_0) shapeCasts_S1x800000_S800000) hs))

/-- The column of source words of one half of the edges. -/
theorem src_col (ei : S2x800000.Idx → BitVec 32) (off : ℕ) (hs : S800000.Slices ![off] S400000)
    (emb : Fin 400000 → Fin 800000) (hemb : ∀ e, (emb e).val = off + e.val) (e : Fin 400000) :
    srcColTerm ei off hs (ix2 e (0 : Fin 1)) = src ei (emb e) := by
  refine (col_read _ _ e 0).trans ?_
  refine (half_read _ off hs e (emb e) (hemb e)).trans ?_
  exact row_read ei 0 _ _ (0 : Fin 2) rfl (emb e)

/-- The column of target words of one half of the edges, each wrapped once if negative. -/
theorem tgt_col (ei : S2x800000.Idx → BitVec 32) (off : ℕ) (hs : S800000.Slices ![off] S400000)
    (emb : Fin 400000 → Fin 800000) (hemb : ∀ e, (emb e).val = off + e.val) (e : Fin 400000) :
    tgtColTerm ei off hs (ix2 e (0 : Fin 1)) = tgt ei (emb e) := by
  refine (col_read _ _ e 0).trans ?_
  have hv : extractStridedSlice S400000 ![off]
      (shapeCast S800000 (extractStridedSlice S1x800000 ![1, 0] ei slices_S2x800000_S1x800000_1_0) shapeCasts_S1x800000_S800000) hs (ix1 e)
      = ei (ix2 (1 : Fin 2) (emb e)) :=
    (half_read _ off hs e (emb e) (hemb e)).trans (row_read ei 1 _ _ (1 : Fin 2) rfl (emb e))
  show Scalar.select (IntOp.cmpi .slt (extractStridedSlice S400000 ![off]
      (shapeCast S800000 (extractStridedSlice S1x800000 ![1, 0] ei slices_S2x800000_S1x800000_1_0) shapeCasts_S1x800000_S800000) hs (ix1 e)) 0#32)
    (IntOp.addi (extractStridedSlice S400000 ![off]
      (shapeCast S800000 (extractStridedSlice S1x800000 ![1, 0] ei slices_S2x800000_S1x800000_1_0) shapeCasts_S1x800000_S800000) hs (ix1 e)) 100000#32)
    (extractStridedSlice S400000 ![off]
      (shapeCast S800000 (extractStridedSlice S1x800000 ![1, 0] ei slices_S2x800000_S1x800000_1_0) shapeCasts_S1x800000_S800000) hs (ix1 e)) = _
  rw [hv]
  rfl

/-! ## The two aggregations over a family of edges -/

/-- The scatter-add, from zero, along a column of source words, of the feature rows gathered at a column of target words:
    at (n, d) it is zero plus the sum of x(target row, d) over the edges whose source is n. -/
theorem agg_rows (emb : Fin 400000 → Fin 800000) (x : S100000x64.Idx → EReal) (ei : S2x800000.Idx → BitVec 32)
    (z : S100000x64.Idx → EReal) (hz : ∀ i, z i = zero) (sCol tCol : S400000x1.Idx → BitVec 32)
    (hs : ∀ e : Fin 400000, sCol (ix2 e (0 : Fin 1)) = src ei (emb e))
    (ht : ∀ e : Fin 400000, tCol (ix2 e (0 : Fin 1)) = tgt ei (emb e)) (n : Fin 100000) (d : Fin 64) :
    Host.scatterAdd (F := Ideal) (φ := .f32) scatter_S100000x64_S400000x1_S400000x64_1_0_0_1 z sCol
        (Host.gather gather_S100000x64_S400000x1_S400000x64_1_0_n_n_0_1_164 x tCol) (ix2 n d)
      = zero + aggOver emb x ei n d := by
  refine (Cert.LibRows.scatterAdd_rows_apply (N := 100000) (W := 64) (E := 400000) (w := 32)
    scatter_S100000x64_S400000x1_S400000x64_1_0_0_1_wf z sCol _ n d).trans ?_
  rw [hz]
  unfold aggOver
  refine congrArg (fun t => zero + t) ?_
  refine Finset.sum_congr (Finset.filter_congr fun e _ => by rw [hs]) fun e _ => ?_
  refine (Cert.LibRows.gather_rows_apply (N := 100000) (W := 64) (E := 400000) (w := 32) (by decide)
    gather_S100000x64_S400000x1_S400000x64_1_0_n_n_0_1_164_wf x tCol e d).trans ?_
  refine congrArg (fun r => x (ix2 r d)) (Fin.ext ?_)
  show min (tCol (ix2 e 0)).toInt.toNat (100000 - 1) = min (tgt ei (emb e)).toInt.toNat (100000 - 1)
  rw [ht]

/-- The scatter-add, from zero, of ones along a column of source words: at (n, 0) it is zero plus one for every edge whose
    source is n. -/
theorem cnt_rows (emb : Fin 400000 → Fin 800000) (ei : S2x800000.Idx → BitVec 32)
    (z : S100000x1.Idx → EReal) (hz : ∀ i, z i = zero) (sCol : S400000x1.Idx → BitVec 32)
    (o : S400000x1.Idx → EReal) (ho : ∀ i, o i = one)
    (hs : ∀ e : Fin 400000, sCol (ix2 e (0 : Fin 1)) = src ei (emb e)) (n : Fin 100000) :
    Host.scatterAdd (F := Ideal) (φ := .f32) scatter_S100000x1_S400000x1_S400000x1_1_0_0_1 z sCol o (ix2 n (0 : Fin 1))
      = zero + cntOver emb ei n := by
  refine (Cert.LibRows.scatterAdd_rows_apply (N := 100000) (W := 1) (E := 400000) (w := 32)
    scatter_S100000x1_S400000x1_S400000x1_1_0_0_1_wf z sCol o n 0).trans ?_
  rw [hz]
  unfold cntOver
  refine congrArg (fun t => zero + t) ?_
  exact Finset.sum_congr (Finset.filter_congr fun e _ => by rw [hs]) fun e _ => ho _

/-! ## The four aggregated arrays the region reads -/

/-- The feature aggregation over the half of the edges from position `off`: the program's own term of the launch arrays. -/
abbrev aggTerm (x : S100000x64.Idx → EReal) (ei : S2x800000.Idx → BitVec 32) (off : ℕ) (hs : S800000.Slices ![off] S400000) :
    S100000x64.Idx → EReal :=
  Host.scatterAdd (F := Ideal) (φ := .f32) scatter_S100000x64_S400000x1_S400000x64_1_0_0_1
    (broadcastInDim S100000x64 ![] bcast_S_S100000x64 (constant (F := Ideal) S_ .f32 0x00000000#32))
    (srcColTerm ei off hs)
    (Host.gather gather_S100000x64_S400000x1_S400000x64_1_0_n_n_0_1_164 x (tgtColTerm ei off hs))

/-- The neighbour count over the half of the edges from position `off`: the program's own term of the launch arrays. -/
abbrev cntTerm (ei : S2x800000.Idx → BitVec 32) (off : ℕ) (hs : S800000.Slices ![off] S400000) : S100000x1.Idx → EReal :=
  Host.scatterAdd (F := Ideal) (φ := .f32) scatter_S100000x1_S400000x1_S400000x1_1_0_0_1
    (broadcastInDim S100000x1 ![] bcast_S_S100000x1 (constant (F := Ideal) S_ .f32 0x00000000#32))
    (srcColTerm ei off hs)
    (broadcastInDim S400000x1 ![] bcast_S_S400000x1 (constant (F := Ideal) S_ .f32 0x3F800000#32))

theorem aggTerm_apply (x : S100000x64.Idx → EReal) (ei : S2x800000.Idx → BitVec 32) (off : ℕ) (hs : S800000.Slices ![off] S400000)
    (emb : Fin 400000 → Fin 800000) (hemb : ∀ e, (emb e).val = off + e.val) (n : Fin 100000) (d : Fin 64) :
    aggTerm x ei off hs (ix2 n d) = zero + aggOver emb x ei n d :=
  agg_rows emb x ei _ (fun _ => rfl) _ _ (src_col ei off hs emb hemb) (tgt_col ei off hs emb hemb) n d

theorem cntTerm_apply (ei : S2x800000.Idx → BitVec 32) (off : ℕ) (hs : S800000.Slices ![off] S400000)
    (emb : Fin 400000 → Fin 800000) (hemb : ∀ e, (emb e).val = off + e.val) (n : Fin 100000) :
    cntTerm ei off hs (ix2 n (0 : Fin 1)) = zero + cntOver emb ei n :=
  cnt_rows emb ei _ (fun _ => rfl) _ _ (fun _ => rfl) (src_col ei off hs emb hemb) n

theorem lo_val (e : Fin 400000) : (lo e).val = 0 + e.val := (Nat.zero_add _).symm
theorem hi_val (e : Fin 400000) : (hi e).val = 400000 + e.val := rfl

set_option maxHeartbeats 4000000 in
/-- The first scale's aggregated features as the region finds them: the sum over the first half of the edges. -/
theorem host_agg1 (n : Fin 100000) (d : Fin 64) :
    (V m c main_v15 : S100000x64.Idx → EReal) (ix2 n d)
      = zero + aggOver lo (m ((c : Thread nD τ).loc main_arg0) : S100000x64.Idx → EReal)
          (m ((c : Thread nD τ).loc main_arg1) : S2x800000.Idx → BitVec 32) n d := by
  have e : (V m c main_v15 : S100000x64.Idx → EReal)
      = aggTerm (m ((c : Thread nD τ).loc main_arg0)) (m ((c : Thread nD τ).loc main_arg1)) 0 slices_S800000_S400000_0 := by
    dsimp only [Gen.V, Gen.hostOps0]; (after_results_simp <;> rfl)
  rw [e]
  exact aggTerm_apply _ _ 0 _ lo lo_val n d

set_option maxHeartbeats 4000000 in
/-- The first scale's neighbour counts as the region finds them: one for every edge of the first half with that source. -/
theorem host_cnt1 (n : Fin 100000) :
    (V m c main_v19 : S100000x1.Idx → EReal) (ix2 n (0 : Fin 1))
      = zero + cntOver lo (m ((c : Thread nD τ).loc main_arg1) : S2x800000.Idx → BitVec 32) n := by
  have e : (V m c main_v19 : S100000x1.Idx → EReal)
      = cntTerm (m ((c : Thread nD τ).loc main_arg1)) 0 slices_S800000_S400000_0 := by
    dsimp only [Gen.V, Gen.hostOps0]; (after_results_simp <;> rfl)
  rw [e]
  exact cntTerm_apply _ 0 _ lo lo_val n

set_option maxHeartbeats 8000000 in
/-- The second scale's aggregated features as the region finds them: the first half's sum plus the second half's. -/
theorem host_agg2 (n : Fin 100000) (d : Fin 64) :
    (V m c main_v36 : S100000x64.Idx → EReal) (ix2 n d)
      = (zero + aggOver lo (m ((c : Thread nD τ).loc main_arg0) : S100000x64.Idx → EReal)
          (m ((c : Thread nD τ).loc main_arg1) : S2x800000.Idx → BitVec 32) n d)
        + (zero + aggOver hi (m ((c : Thread nD τ).loc main_arg0) : S100000x64.Idx → EReal)
          (m ((c : Thread nD τ).loc main_arg1) : S2x800000.Idx → BitVec 32) n d) := by
  have e : (V m c main_v36 : S100000x64.Idx → EReal)
      = addf (F := Ideal) (φ := .f32)
          (aggTerm (m ((c : Thread nD τ).loc main_arg0)) (m ((c : Thread nD τ).loc main_arg1)) 0 slices_S800000_S400000_0)
          (aggTerm (m ((c : Thread nD τ).loc main_arg0)) (m ((c : Thread nD τ).loc main_arg1)) 400000 slices_S800000_S400000_400000) := by
    dsimp only [Gen.V, Gen.hostOps0]; (after_results_simp <;> rfl)
  rw [e]
  exact congrArg₂ (· + ·) (aggTerm_apply _ _ 0 _ lo lo_val n d) (aggTerm_apply _ _ 400000 _ hi hi_val n d)

set_option maxHeartbeats 8000000 in
/-- The second scale's neighbour counts as the region finds them: the first half's count plus the second half's. -/
theorem host_cnt2 (n : Fin 100000) :
    (V m c main_v37 : S100000x1.Idx → EReal) (ix2 n (0 : Fin 1))
      = (zero + cntOver lo (m ((c : Thread nD τ).loc main_arg1) : S2x800000.Idx → BitVec 32) n)
        + (zero + cntOver hi (m ((c : Thread nD τ).loc main_arg1) : S2x800000.Idx → BitVec 32) n) := by
  have e : (V m c main_v37 : S100000x1.Idx → EReal)
      = addf (F := Ideal) (φ := .f32)
          (cntTerm (m ((c : Thread nD τ).loc main_arg1)) 0 slices_S800000_S400000_0)
          (cntTerm (m ((c : Thread nD τ).loc main_arg1)) 400000 slices_S800000_S400000_400000) := by
    dsimp only [Gen.V, Gen.hostOps0]; (after_results_simp <;> rfl)
  rw [e]
  exact congrArg₂ (· + ·) (cntTerm_apply _ 0 _ lo lo_val n) (cntTerm_apply _ 400000 _ hi hi_val n)

end Cert.Fused.Host

end
-- ==== Proof.LibIndexReads.lean ====
/-
  Small reads at an index, and the logistic function written out as a quotient. Nothing here depends on a program.
    • An index of a matrix (of a vector) is determined by the values of its coordinates: the form in which a composed index
      map is identified with the index of given coordinates, each coordinate by reflexivity or by arithmetic.
    • A vector cut from entry o reads, at q, the source at o + q; cut, recast as one row and spread down the rows, it reads
      at (p, q) the source at o + q (needs LibKeepdims.lean beside it).
    • The logistic function and the hyperbolic tangent of a vector act entry by entry on the extended reals.
    • The quotient 1 / (1 + e^(−x)) with both ones written as the float32 word of one is the logistic function of the
      extended reals, at the infinities too: the word is the extended real one, and the logistic function is that quotient by
      definition. Stated on the extended reals' own operations and on the host's operations a reference program uses when
      it writes a sigmoid out as negate, exponential, add and divide.
-/
import proofs.«123001_j5222680232055_2_alg».proof.Proof.LibKeepdims
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

noncomputable section

namespace IndexReads

open Idealize.ShloMosaic Idealize.ShloMosaic.ValueIdx

/-- A matrix index is determined by the values of its two coordinates. -/
theorem ix2_of_vals {n0 n1 : Nat} (i : (⟨2, ![n0, n1]⟩ : Shape).Idx) (a : Fin n0) (b : Fin n1)
    (h0 : (i 0).val = a.val) (h1 : (i 1).val = b.val) : i = ix2 a b :=
  (eq_ix2 i).trans (congrArg₂ ix2 (Fin.ext h0) (Fin.ext h1))

/-- A vector index is determined by the value of its coordinate. -/
theorem ix1_of_val {n : Nat} (i : (⟨1, ![n]⟩ : Shape).Idx) (a : Fin n) (h : (i 0).val = a.val) : i = ix1 a :=
  (eq_ix1 i).trans (congrArg ix1 (Fin.ext h))

/-- A vector cut from entry o reads, at q, the source at o + q. -/
theorem slice_vec_apply {α : Type} {n w : Nat} (o : Nat) (x : (⟨1, ![n]⟩ : Shape).Idx → α)
    (h : (⟨1, ![n]⟩ : Shape).Slices ![o] ⟨1, ![w]⟩) (q : Fin w) (k : Fin n) (hk : k.val = o + q.val) :
    extractStridedSlice ⟨1, ![w]⟩ ![o] x h (ix1 q) = x (ix1 k) :=
  extractStridedSlice_apply _ _ _ _ _ (fun ax => by
    match ax with
    | ⟨0, _⟩ => exact hk)

/-- A bias vector cut from entry o, recast as one row and spread down the rows, reads at (p, q) the vector at o + q. -/
theorem bias_half_apply {α : Type} {n w a : Nat} (o : Nat) (x : (⟨1, ![n]⟩ : Shape).Idx → α)
    (hs : (⟨1, ![n]⟩ : Shape).Slices ![o] ⟨1, ![w]⟩) (hc : (⟨1, ![w]⟩ : Shape).ShapeCasts ⟨2, ![1, w]⟩)
    (hb : (⟨2, ![1, w]⟩ : Shape).Broadcasts ⟨2, ![a, w]⟩) (p : Fin a) (q : Fin w) (k : Fin n) (hk : k.val = o + q.val) :
    broadcastTo ⟨2, ![a, w]⟩ (shapeCast ⟨2, ![1, w]⟩ (extractStridedSlice ⟨1, ![w]⟩ ![o] x hs) hc) hb (ix2 p q) = x (ix1 k) :=
  (Keepdims.broadcastTo_row_of_vec_apply _ hc hb p q).trans (slice_vec_apply o x hs q k hk)

/-- The logistic function of a vector acts entry by entry. -/
theorem logistic_apply {s : Shape} {φ : FTy} (a : FVec Ideal s φ) (i : s.Idx) : logistic a i = Ideal.logistic (a i) := rfl

/-- The hyperbolic tangent of a vector acts entry by entry. -/
theorem tanh_apply {s : Shape} {φ : FTy} (a : FVec Ideal s φ) (i : s.Idx) : tanh a i = Ideal.tanh (a i) := rfl

/-- The quotient 1 / (1 + e^(−x)), both ones written as the float32 word of one, is the logistic function. -/
theorem logistic_spelled_out (x : EReal) :
    Ideal.div (Ideal.ofBits .f32 0x3F800000#32) (Ideal.ofBits .f32 0x3F800000#32 + Ideal.exp (-x)) = Ideal.logistic x := by
  rw [Ideal.ofBits_one_f32]
  rfl

/-- The same in the host's operations: divide, add, exponential and negate, as a reference that writes a sigmoid out uses them. -/
theorem logistic_written_out (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a :=
  logistic_spelled_out a

end IndexReads

end
-- ==== Proof.RefDense.lean ====
/-
  The dense stage of the reference, read at one entry of its result.

  The reference normalises each of its two aggregated arrays by the neighbour count plus ε, multiplies by the
  transposed weight matrix and adds the bias row; joins the two [100000, 64] results along the columns; multiplies the
  joined [100000, 128] matrix by the transposed gate weights, adds the gate bias, writes the logistic function out as
  1 / (1 + e^(−x)); and mixes the two results with that gate. Read at (n, o), this is the fused dense stage of the four
  aggregated arrays: the sum over the 128 joined columns splits into the first 64 (first result against the first 64
  columns of the gate weights) and the last 64 (second result against the last 64 columns).
-/
import proofs.«123001_j5222680232055_2_alg».proof.Proof.Gen.ReferenceIdeal.Read
import proofs.«123001_j5222680232055_2_alg».proof.Proof.FusedSpec
import proofs.«123001_j5222680232055_2_alg».proof.Proof.LibJoinLayout
import proofs.«123001_j5222680232055_2_alg».proof.Proof.LibSplitSum
import proofs.«123001_j5222680232055_2_alg».proof.Proof.LibIndexReads

noncomputable section

open scoped BigOperators

namespace Cert.Fused.Ref

open Cert.ReferenceIdeal Cert.ReferenceIdeal.Gen Cert.ReferenceIdeal.Read Idealize.ShloMosaic Idealize.ShloMosaic.ValueIdx Cert.Fused

/-- Two matrix indices with the same coordinate values are equal. -/
theorem idx2_ext {a b : ℕ} (i j : (⟨2, ![a, b]⟩ : Shape).Idx) (h0 : (i 0).val = (j 0).val) (h1 : (i 1).val = (j 1).val) :
    i = j :=
  funext fun ax => Fin.ext (by
    match ax with
    | ⟨0, _⟩ => exact h0
    | ⟨1, _⟩ => exact h1)

/-- Two vector indices with the same coordinate value are equal. -/
theorem idx1_ext {a : ℕ} (i j : (⟨1, ![a]⟩ : Shape).Idx) (h0 : (i 0).val = (j 0).val) : i = j :=
  funext fun ax => Fin.ext (by
    match ax with
    | ⟨0, _⟩ => exact h0)

/-- The first scale's normalised row entry: the aggregated feature divided by the count plus ε. -/
theorem v21_at (x0 : (⟨S100000x64, .f32⟩ : BufTy).Contents (Elt Ideal)) (x1 : (⟨S2x800000, .i32⟩ : BufTy).Contents (Elt Ideal))
    (n : Fin 100000) (k : Fin 64) :
    val_main_v21 (F := Ideal) x0 x1 (ix2 n k)
      = Ideal.div (val_main_v13 (F := Ideal) x0 x1 (ix2 n k)) (val_main_v17 (F := Ideal) x1 (ix2 n (0 : Fin 1)) + eps) := by
  rw [val_main_v21_apply, val_main_v20_apply, val_main_v19_apply, val_main_v18_apply, val_main_cst_3_apply]
  have e : idx_main_v20 (ix2 n k) = ix2 n (0 : Fin 1) := idx2_ext _ _ rfl rfl
  rw [e]
  rfl

/-- The second scale's normalised row entry. -/
theorem v48_at (x0 : (⟨S100000x64, .f32⟩ : BufTy).Contents (Elt Ideal)) (x1 : (⟨S2x800000, .i32⟩ : BufTy).Contents (Elt Ideal))
    (n : Fin 100000) (k : Fin 64) :
    val_main_v48 (F := Ideal) x0 x1 (ix2 n k)
      = Ideal.div (val_main_v40 (F := Ideal) x0 x1 (ix2 n k)) (val_main_v44 (F := Ideal) x1 (ix2 n (0 : Fin 1)) + eps) := by
  rw [val_main_v48_apply, val_main_v47_apply, val_main_v46_apply, val_main_v45_apply, val_main_cst_9_apply]
  have e : idx_main_v47 (ix2 n k) = ix2 n (0 : Fin 1) := idx2_ext _ _ rfl rfl
  rw [e]
  rfl

/-- The first scale's result at (n, j): the convolution of the first aggregated row. -/
theorem v26_at (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (n : Fin 100000) (j : Fin 64) :
    val_main_v26 (F := Ideal) x0 x1 x2 x3 (ix2 n j)
      = conv (fun k => val_main_v13 (F := Ideal) x0 x1 (ix2 n k)) (val_main_v17 (F := Ideal) x1 (ix2 n (0 : Fin 1)))
          (fun j k => x2 (ix2 j k)) (fun j => x3 (ix1 j)) j := by
  rw [val_main_v26_apply, val_main_v23_apply, val_main_v25_apply, val_main_v24_apply]
  unfold conv
  have hb : idx_main_v24 (idx_main_v25 (ix2 n j)) = ix1 j := idx1_ext _ _ rfl
  rw [hb]
  have hs : ∀ k : Fin 64, val_main_v21 (F := Ideal) x0 x1 (lidx_main_v23 (ix2 n j) k) * val_main_v22 (F := Ideal) x2 (ridx_main_v23 (ix2 n j) k)
      = Ideal.div (val_main_v13 (F := Ideal) x0 x1 (ix2 n k)) (val_main_v17 (F := Ideal) x1 (ix2 n (0 : Fin 1)) + eps) * x2 (ix2 j k) := by
    intro k
    have el : lidx_main_v23 (ix2 n j) k = ix2 n k := idx2_ext _ _ rfl rfl
    have er : idx_main_v22 (ridx_main_v23 (ix2 n j) k) = ix2 j k := idx2_ext _ _ rfl rfl
    rw [el, v21_at, val_main_v22_apply, er]
  exact congrArg (fun s : EReal => s + x3 (ix1 j)) (Finset.sum_congr rfl fun k _ => hs k)

/-- The second scale's result at (n, j): the convolution of the second aggregated row. -/
theorem v53_at (x0 : (⟨S100000x64, .f32⟩ : BufTy).Contents (Elt Ideal)) (x1 : (⟨S2x800000, .i32⟩ : BufTy).Contents (Elt Ideal))
    (x4 : (⟨S64x64, .f32⟩ : BufTy).Contents (Elt Ideal)) (x5 : (⟨S64, .f32⟩ : BufTy).Contents (Elt Ideal))
    (n : Fin 100000) (j : Fin 64) :
    val_main_v53 (F := Ideal) x0 x1 x4 x5 (ix2 n j)
      = conv (fun k => val_main_v40 (F := Ideal) x0 x1 (ix2 n k)) (val_main_v44 (F := Ideal) x1 (ix2 n (0 : Fin 1)))
          (fun j k => x4 (ix2 j k)) (fun j => x5 (ix1 j)) j := by
  rw [val_main_v53_apply, val_main_v50_apply, val_main_v52_apply, val_main_v51_apply]
  unfold conv
  have hb : idx_main_v51 (idx_main_v52 (ix2 n j)) = ix1 j := idx1_ext _ _ rfl
  rw [hb]
  have hs : ∀ k : Fin 64, val_main_v48 (F := Ideal) x0 x1 (lidx_main_v50 (ix2 n j) k) * val_main_v49 (F := Ideal) x4 (ridx_main_v50 (ix2 n j) k)
      = Ideal.div (val_main_v40 (F := Ideal) x0 x1 (ix2 n k)) (val_main_v44 (F := Ideal) x1 (ix2 n (0 : Fin 1)) + eps) * x4 (ix2 j k) := by
    intro k
    have el : lidx_main_v50 (ix2 n j) k = ix2 n k := idx2_ext _ _ rfl rfl
    have er : idx_main_v49 (ridx_main_v50 (ix2 n j) k) = ix2 j k := idx2_ext _ _ rfl rfl
    rw [el, v48_at, val_main_v49_apply, er]
  exact congrArg (fun s : EReal => s + x5 (ix1 j)) (Finset.sum_congr rfl fun k _ => hs k)

/-- The gate's logit at (n, o): the joined row against the gate weights, split into the two blocks of 64 columns, plus the bias. -/
theorem v59_at (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (n : Fin 100000) (o : Fin 64) :
    val_main_v59 (F := Ideal) x0 x1 x2 x3 x4 x5 x6 x7 (ix2 n o)
      = (∑ k : Fin 64, val_main_v26 (F := Ideal) x0 x1 x2 x3 (ix2 n k) * x6 (ix2 o (colA k)))
        + (∑ k : Fin 64, val_main_v53 (F := Ideal) x0 x1 x4 x5 (ix2 n k) * x6 (ix2 o (colB k)))
        + x7 (ix1 o) := by
  rw [val_main_v59_apply, val_main_v56_apply, val_main_v58_apply, val_main_v57_apply]
  refine congrArg₂ (fun a b : EReal => a + b) ?_ (congrArg x7 (idx1_ext _ _ rfl))
  refine SplitSum.sum_eq_add_of_blocks (K₁ := 64) (K₂ := 64) rfl _ _ _ (fun k => ?_) (fun k => ?_)
  · show val_main_v54 (F := Ideal) x0 x1 x2 x3 x4 x5 (lidx_main_v56 (ix2 n o) (colA k))
        * val_main_v55 (F := Ideal) x6 (ridx_main_v56 (ix2 n o) (colA k)) = _
    have el : lidx_main_v56 (ix2 n o) (colA k) = ix2 n (colA k) := idx2_ext _ _ rfl rfl
    rw [el, val_main_v55_apply]
    refine congrArg₂ (fun a b : EReal => a * b) ?_ (congrArg x6 (idx2_ext _ _ rfl rfl))
    unfold val_main_v54
    exact JoinLayout.concatenate_cols_left _ _ concatenates_S100000x64_S100000x64_S100000x128_d1 n (colA k) k rfl
  · show val_main_v54 (F := Ideal) x0 x1 x2 x3 x4 x5 (lidx_main_v56 (ix2 n o) (colB k))
        * val_main_v55 (F := Ideal) x6 (ridx_main_v56 (ix2 n o) (colB k)) = _
    have el : lidx_main_v56 (ix2 n o) (colB k) = ix2 n (colB k) := idx2_ext _ _ rfl rfl
    rw [el, val_main_v55_apply]
    refine congrArg₂ (fun a b : EReal => a * b) ?_ (congrArg x6 (idx2_ext _ _ rfl rfl))
    unfold val_main_v54
    exact JoinLayout.concatenate_cols_right _ _ concatenates_S100000x64_S100000x64_S100000x128_d1 n (colB k) k
      (Nat.add_comm k.val 64)

/-- The gate at (n, o): the quotient the reference writes out is the logistic function of the logit. -/
theorem v65_at (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (i : S100000x64.Idx) :
    val_main_v65 (F := Ideal) x0 x1 x2 x3 x4 x5 x6 x7 i
      = Ideal.logistic (val_main_v59 (F := Ideal) x0 x1 x2 x3 x4 x5 x6 x7 i) := by
  rw [val_main_v65_apply, val_main_v64_apply, val_main_cst_11_apply, val_main_v63_apply, val_main_v62_apply,
    val_main_cst_10_apply, val_main_v61_apply, val_main_v60_apply]
  exact IndexReads.logistic_written_out _

/-- The reference's result at (n, o) is the fused dense stage of its four aggregated arrays. -/
theorem ref_dense (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x128, .f32⟩ : BufTy).Contents (Elt Ideal)) (x7 : (⟨S64, .f32⟩ : BufTy).Contents (Elt Ideal))
    (n : Fin 100000) (o : Fin 64) :
    val_main_v70 (F := Ideal) x0 x1 x2 x3 x4 x5 x6 x7 (ix2 n o)
      = Cert.Fused.dense (val_main_v13 (F := Ideal) x0 x1) (val_main_v17 (F := Ideal) x1) (val_main_v40 (F := Ideal) x0 x1)
          (val_main_v44 (F := Ideal) x1) x2 x3 x4 x5 x6 x7 n o := by
  rw [val_main_v70_apply, val_main_v66_apply, val_main_v69_apply, val_main_v68_apply, val_main_v67_apply,
    val_main_cst_12_apply, v65_at, v59_at]
  unfold dense rowOut fuse
  simp only [v26_at, v53_at]
  rfl

end Cert.Fused.Ref

end
-- ==== Proof.RefEdges.lean ====
/-
  The edge aggregation of the reference, read node by node.

  The reference aggregates twice: over the first 400000 edges and over all 800000. Each time it cuts the source row and
  the target row out of the edge list, wraps a negative target once, gathers the feature rows of the targets (the row
  number read signed and clamped into the matrix), and scatter-adds the gathered rows, and a column of ones, into arrays
  of zeros at the source rows (an edge whose source is not a node number is dropped). Read at node n, an aggregated
  array is therefore zero plus the sum, over the edges whose source is n, of the gathered feature, and a count is zero
  plus the sum of ones over the same edges.
-/
import proofs.«123001_j5222680232055_2_alg».proof.Proof.Gen.ReferenceIdeal.Read
import proofs.«123001_j5222680232055_2_alg».proof.Proof.EdgeSpec
import proofs.«123001_j5222680232055_2_alg».proof.Proof.LibRows

noncomputable section

open scoped BigOperators

namespace Cert.Fused.Ref

open Cert.ReferenceIdeal Cert.ReferenceIdeal.Gen Cert.ReferenceIdeal.Read Idealize.ShloMosaic Idealize.ShloMosaic.ValueIdx Cert.Fused

/-- Two matrix indices with the same coordinate values are equal. -/
private theorem eidx2_ext {a b : ℕ} (i j : (⟨2, ![a, b]⟩ : Shape).Idx) (h0 : (i 0).val = (j 0).val) (h1 : (i 1).val = (j 1).val) :
    i = j :=
  funext fun ax => Fin.ext (by
    match ax with
    | ⟨0, _⟩ => exact h0
    | ⟨1, _⟩ => exact h1)

/-! ## The first 400000 edges -/

/-- The source column of the first half reads, at edge e, the source word of edge e. -/
theorem v12_at (x1 : (⟨S2x800000, .i32⟩ : BufTy).Contents (Elt Ideal)) (e : Fin 400000) :
    val_main_v12 (F := Ideal) x1 (ix2 e (0 : Fin 1)) = src x1 (lo e) := by
  rw [val_main_v12_apply, val_main_v1_apply, val_main_v0_apply]
  exact congrArg x1 (eidx2_ext _ _ rfl (Nat.mod_eq_of_lt e.isLt))

/-- The same column, as the count's scatter reads it. -/
theorem v16_at (x1 : (⟨S2x800000, .i32⟩ : BufTy).Contents (Elt Ideal)) (e : Fin 400000) :
    val_main_v16 (F := Ideal) x1 (ix2 e (0 : Fin 1)) = src x1 (lo e) := by
  rw [val_main_v16_apply, val_main_v1_apply, val_main_v0_apply]
  exact congrArg x1 (eidx2_ext _ _ rfl (Nat.mod_eq_of_lt e.isLt))

/-- The target column of the first half reads, at edge e, the wrapped target word of edge e. -/
theorem v9_at (x1 : (⟨S2x800000, .i32⟩ : BufTy).Contents (Elt Ideal)) (e : Fin 400000) :
    val_main_v9 (F := Ideal) x1 (ix2 e (0 : Fin 1)) = tgt x1 (lo e) := by
  have h3 : val_main_v3 (F := Ideal) x1 (idx_main_v9 (ix2 e (0 : Fin 1))) = x1 (ix2 (1 : Fin 2) (lo e)) := by
    rw [val_main_v3_apply, val_main_v2_apply]
    exact congrArg x1 (eidx2_ext _ _ rfl (Nat.mod_eq_of_lt e.isLt))
  rw [val_main_v9_apply, val_main_v8_apply, val_main_v5_apply, val_main_v7_apply, val_main_v4_apply, val_main_v6_apply,
    val_main_c_apply, val_main_c_0_apply, h3]
  rfl

/-- The gathered rows of the first half: at (e, d) the feature matrix at the clamped target row of edge e. -/
theorem v10_at (x0 : (⟨S100000x64, .f32⟩ : BufTy).Contents (Elt Ideal)) (x1 : (⟨S2x800000, .i32⟩ : BufTy).Contents (Elt Ideal)) (e : Fin 400000) (d : Fin 64) :
    val_main_v10 (F := Ideal) x0 x1 (ix2 e d) = x0 (ix2 (tgtRow x1 (lo e)) d) := by
  unfold val_main_v10
  refine (Cert.LibRows.gather_rows_apply (N := 100000) (W := 64) (E := 400000) (by decide)
    gather_S100000x64_S400000x1_S400000x64_1_0_n_n_0_1_164_wf x0 (val_main_v9 (F := Ideal) x1) e d).trans ?_
  exact congrArg (fun w : BitVec 32 => x0 (ix2 (⟨min w.toInt.toNat (100000 - 1), by omega⟩ : Fin 100000) d)) (v9_at x1 e)

/-- The first aggregated array at (n, d). -/
theorem ref_agg1 (x0 : (⟨S100000x64, .f32⟩ : BufTy).Contents (Elt Ideal)) (x1 : (⟨S2x800000, .i32⟩ : BufTy).Contents (Elt Ideal)) (n : Fin 100000) (d : Fin 64) :
    val_main_v13 (F := Ideal) x0 x1 (ix2 n d) = Cert.Fused.zero + Cert.Fused.aggOver Cert.Fused.lo x0 x1 n d := by
  unfold val_main_v13
  refine (Cert.LibRows.scatterAdd_rows_apply (N := 100000) (W := 64) (E := 400000)
    scatter_S100000x64_S400000x1_S400000x64_1_0_0_1_wf (val_main_v11 (F := Ideal)) (val_main_v12 (F := Ideal) x1)
    (val_main_v10 (F := Ideal) x0 x1) n d).trans ?_
  unfold aggOver
  refine congrArg (fun s : EReal => zero + s) (Finset.sum_congr ?_ fun e _ => v10_at x0 x1 e d)
  ext e
  rw [Finset.mem_filter, Finset.mem_filter, v12_at]

/-- The first count at node n. -/
theorem ref_cnt1 (x1 : (⟨S2x800000, .i32⟩ : BufTy).Contents (Elt Ideal)) (n : Fin 100000) :
    val_main_v17 (F := Ideal) x1 (ix2 n (0 : Fin 1)) = Cert.Fused.zero + Cert.Fused.cntOver Cert.Fused.lo x1 n := by
  unfold val_main_v17
  refine (Cert.LibRows.scatterAdd_rows_apply (N := 100000) (W := 1) (E := 400000)
    scatter_S100000x1_S400000x1_S400000x1_1_0_0_1_wf (val_main_v15 (F := Ideal)) (val_main_v16 (F := Ideal) x1)
    (val_main_v14 (F := Ideal)) n (0 : Fin 1)).trans ?_
  unfold cntOver
  refine congrArg (fun s : EReal => zero + s) (Finset.sum_congr ?_ fun e _ => rfl)
  ext e
  rw [Finset.mem_filter, Finset.mem_filter, v16_at]

/-! ## All 800000 edges -/

/-- The source column of all edges reads, at edge j, the source word of edge j. -/
theorem v39_at (x1 : (⟨S2x800000, .i32⟩ : BufTy).Contents (Elt Ideal)) (j : Fin 800000) :
    val_main_v39 (F := Ideal) x1 (ix2 j (0 : Fin 1)) = src x1 (id j) := by
  rw [val_main_v39_apply, val_main_v28_apply, val_main_v27_apply]
  exact congrArg x1 (eidx2_ext _ _ rfl (Nat.mod_eq_of_lt j.isLt))

/-- The same column, as the count's scatter reads it. -/
theorem v43_at (x1 : (⟨S2x800000, .i32⟩ : BufTy).Contents (Elt Ideal)) (j : Fin 800000) :
    val_main_v43 (F := Ideal) x1 (ix2 j (0 : Fin 1)) = src x1 (id j) := by
  rw [val_main_v43_apply, val_main_v28_apply, val_main_v27_apply]
  exact congrArg x1 (eidx2_ext _ _ rfl (Nat.mod_eq_of_lt j.isLt))

/-- The target column of all edges reads, at edge j, the wrapped target word of edge j. -/
theorem v36_at (x1 : (⟨S2x800000, .i32⟩ : BufTy).Contents (Elt Ideal)) (j : Fin 800000) :
    val_main_v36 (F := Ideal) x1 (ix2 j (0 : Fin 1)) = tgt x1 (id j) := by
  have h3 : val_main_v30 (F := Ideal) x1 (idx_main_v36 (ix2 j (0 : Fin 1))) = x1 (ix2 (1 : Fin 2) (id j)) := by
    rw [val_main_v30_apply, val_main_v29_apply]
    exact congrArg x1 (eidx2_ext _ _ rfl (Nat.mod_eq_of_lt j.isLt))
  rw [val_main_v36_apply, val_main_v35_apply, val_main_v32_apply, val_main_v34_apply, val_main_v31_apply, val_main_v33_apply,
    val_main_c_4_apply, val_main_c_5_apply, h3]
  rfl

/-- The gathered rows of all edges: at (j, d) the feature matrix at the clamped target row of edge j. -/
theorem v37_at (x0 : (⟨S100000x64, .f32⟩ : BufTy).Contents (Elt Ideal)) (x1 : (⟨S2x800000, .i32⟩ : BufTy).Contents (Elt Ideal)) (j : Fin 800000) (d : Fin 64) :
    val_main_v37 (F := Ideal) x0 x1 (ix2 j d) = x0 (ix2 (tgtRow x1 (id j)) d) := by
  unfold val_main_v37
  refine (Cert.LibRows.gather_rows_apply (N := 100000) (W := 64) (E := 800000) (by decide)
    gather_S100000x64_S800000x1_S800000x64_1_0_n_n_0_1_164_wf x0 (val_main_v36 (F := Ideal) x1) j d).trans ?_
  exact congrArg (fun w : BitVec 32 => x0 (ix2 (⟨min w.toInt.toNat (100000 - 1), by omega⟩ : Fin 100000) d)) (v36_at x1 j)

/-- The second aggregated array at (n, d). -/
theorem ref_agg2 (x0 : (⟨S100000x64, .f32⟩ : BufTy).Contents (Elt Ideal)) (x1 : (⟨S2x800000, .i32⟩ : BufTy).Contents (Elt Ideal)) (n : Fin 100000) (d : Fin 64) :
    val_main_v40 (F := Ideal) x0 x1 (ix2 n d) = Cert.Fused.zero + Cert.Fused.aggOver id x0 x1 n d := by
  unfold val_main_v40
  refine (Cert.LibRows.scatterAdd_rows_apply (N := 100000) (W := 64) (E := 800000)
    scatter_S100000x64_S800000x1_S800000x64_1_0_0_1_wf (val_main_v38 (F := Ideal)) (val_main_v39 (F := Ideal) x1)
    (val_main_v37 (F := Ideal) x0 x1) n d).trans ?_
  unfold aggOver
  refine congrArg (fun s : EReal => zero + s) (Finset.sum_congr ?_ fun j _ => v37_at x0 x1 j d)
  ext j
  rw [Finset.mem_filter, Finset.mem_filter, v39_at]

/-- The second count at node n. -/
theorem ref_cnt2 (x1 : (⟨S2x800000, .i32⟩ : BufTy).Contents (Elt Ideal)) (n : Fin 100000) :
    val_main_v44 (F := Ideal) x1 (ix2 n (0 : Fin 1)) = Cert.Fused.zero + Cert.Fused.cntOver id x1 n := by
  unfold val_main_v44
  refine (Cert.LibRows.scatterAdd_rows_apply (N := 100000) (W := 1) (E := 800000)
    scatter_S100000x1_S800000x1_S800000x1_1_0_0_1_wf (val_main_v42 (F := Ideal)) (val_main_v43 (F := Ideal) x1)
    (val_main_v41 (F := Ideal)) n (0 : Fin 1)).trans ?_
  unfold cntOver
  refine congrArg (fun s : EReal => zero + s) (Finset.sum_congr ?_ fun j _ => rfl)
  ext j
  rw [Finset.mem_filter, Finset.mem_filter, v43_at]

end Cert.Fused.Ref

end
-- ==== Proof.Bridge.lean ====
/-
  The two programs compute one function of the arguments.

  Kernel side: the array the run leaves is, entry by entry, the node-wise function `rowOut` of the four aggregated
  arrays its host operations prepare and of the weights (re-laid: biases as rows, the gate matrix in two halves).
  Reference side: its result is, entry by entry, the same `rowOut` of ITS four aggregated arrays and of the weights
  as given. The aggregated arrays agree: the first-half aggregation is computed the same way by both, and the
  all-edges aggregation of the reference is the kernel's first-half aggregation plus its second-half aggregation,
  because a sum over all 800000 edges splits into the sums over its two halves (addition of extended reals is
  commutative and associative, and the zero both start from is the additive zero). The re-laid weights read the
  arguments at the positions the reference reads them.
-/
import proofs.«123001_j5222680232055_2_alg».proof.Proof.KernelArray
import proofs.«123001_j5222680232055_2_alg».proof.Proof.HostPrefix
import proofs.«123001_j5222680232055_2_alg».proof.Proof.RefDense
import proofs.«123001_j5222680232055_2_alg».proof.Proof.RefEdges
import proofs.«123001_j5222680232055_2_alg».proof.Proof.EdgeSpec

noncomputable section

namespace Cert.Fused.Bridge

open Idealize.ShloMosaic Idealize.ShloMosaic.TcCoe Idealize.ShloMosaic.ValueIdx Idealize.SL.Sem Cert.Fused

variable (m : (ℓ : Loc Cert.KernelIdeal.nD Cert.KernelIdeal.τ Cert.KernelIdeal.sig) → Buf (Elt Ideal) ℓ)

/-- The kernel's result array is the reference's result term of the same arguments. -/
theorem result_eq (c : Dev Cert.KernelIdeal.nD) :
    Blocks.result m c = Cert.ReferenceIdeal.Read.val_main_v70 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)) := by
  funext i
  obtain ⟨n, o, rfl⟩ : ∃ (n : Fin 100000) (o : Fin 64), i = ix2 n o := ⟨i 0, i 1, eq_ix2 i⟩
  refine Eq.trans ?_ (Ref.ref_dense _ _ _ _ _ _ _ _ n o).symm
  show Blocks.tileFn (Cert.KernelIdeal.Gen.V m c Cert.KernelIdeal.main_v15) (Cert.KernelIdeal.Gen.V m c Cert.KernelIdeal.main_v19) (Cert.KernelIdeal.Gen.V m c Cert.KernelIdeal.main_v36) (Cert.KernelIdeal.Gen.V m c Cert.KernelIdeal.main_v37) (Cert.KernelIdeal.Gen.V m c Cert.KernelIdeal.main_arg2) (Cert.KernelIdeal.Gen.V m c Cert.KernelIdeal.main_v38) (Cert.KernelIdeal.Gen.V m c Cert.KernelIdeal.main_arg4) (Cert.KernelIdeal.Gen.V m c Cert.KernelIdeal.main_v39) (Cert.KernelIdeal.Gen.V m c Cert.KernelIdeal.main_v41) (Cert.KernelIdeal.Gen.V m c Cert.KernelIdeal.main_v42) (Cert.KernelIdeal.Gen.V m c Cert.KernelIdeal.main_v40) n o = dense _ _ _ _ _ _ _ _ _ _ n o
  unfold Blocks.tileFn dense
  refine Blocks.rowOut_congr o ?_ ?_ ?_ ?_ ?_ ?_ ?_ ?_ ?_ ?_ ?_
  · exact funext fun k => (Host.host_agg1 m c n k).trans (Ref.ref_agg1 _ _ n k).symm
  · exact (Host.host_cnt1 m c n).trans (Ref.ref_cnt1 _ n).symm
  · exact funext fun k => (Host.host_agg2 m c n k).trans (((zero_add_halves _ _).trans
      (congrArg (fun t => zero + t) (aggOver_all _ _ n k).symm)).trans (Ref.ref_agg2 _ _ n k).symm)
  · exact (Host.host_cnt2 m c n).trans (((zero_add_halves _ _).trans
      (congrArg (fun t => zero + t) (cntOver_all _ n).symm)).trans (Ref.ref_cnt2 _ n).symm)
  · exact funext fun j => funext fun k => congrFun (Cert.KernelIdeal.Gen.V_main_arg2 m c) (ix2 j k)
  · exact funext fun j => Host.host_b1 m c j
  · exact funext fun j => funext fun k => congrFun (Cert.KernelIdeal.Gen.V_main_arg4 m c) (ix2 j k)
  · exact funext fun j => Host.host_b2 m c j
  · exact funext fun j => funext fun k => Host.host_wA m c j k
  · exact funext fun j => funext fun k => Host.host_wB m c j k
  · exact funext fun j => Host.host_bg m c j

end Cert.Fused.Bridge

end
-- ==== Proof.lean ====
/-
  A two-scale graph convolution with a gated fusion, over 100000 nodes with 64 features and 800000 edges.

  For each node n and each scale (the first 400000 edges, and all 800000), the neighbour features x[target] of the
  edges whose source is n are summed, divided by the number of such edges plus ε, passed through a linear layer, and
  the two scales' results are mixed by a logistic gate computed from both.
  The kernel program prepares the aggregations with host operations — the all-edges one as the first half's plus the
  second half's —, then runs one tile program over 20 blocks of 5000 nodes that does the normalisation, the two
  layers, the gate (as two products with the two halves of the gate matrix) and the mixture.
  The reference program does the same with whole-array operations, the gate as one product over the 128 joined
  features and the logistic function written out as 1 / (1 + e^(−x)).
  On the extended reals the two agree entry by entry: sums may be regrouped and split, a change of float format is
  the identity, and the written-out quotient is the logistic function. No finiteness of the inputs is used.

  The three frames: the two kernel programs' are generated whole; the reference's is its generated run with the
  result dropped. The kernel's idealization rewrote nothing, so it is preserved trivially.
-/
import proofs.«123001_j5222680232055_2_alg».proof.Defs
import proofs.«123001_j5222680232055_2_alg».proof.Proof.Gen.Kernel
import proofs.«123001_j5222680232055_2_alg».proof.Proof.Gen.Kernel.Skeleton
import proofs.«123001_j5222680232055_2_alg».proof.Proof.Gen.Kernel.Launch
import proofs.«123001_j5222680232055_2_alg».proof.Proof.Gen.Kernel.Points
import proofs.«123001_j5222680232055_2_alg».proof.Proof.Gen.Kernel.Frame
import proofs.«123001_j5222680232055_2_alg».proof.Proof.Gen.KernelIdeal
import proofs.«123001_j5222680232055_2_alg».proof.Proof.Gen.KernelIdeal.Skeleton
import proofs.«123001_j5222680232055_2_alg».proof.Proof.Gen.KernelIdeal.Launch
import proofs.«123001_j5222680232055_2_alg».proof.Proof.Gen.KernelIdeal.Points
import proofs.«123001_j5222680232055_2_alg».proof.Proof.Gen.KernelIdeal.Frame
import proofs.«123001_j5222680232055_2_alg».proof.Proof.Gen.ReferenceIdeal
import proofs.«123001_j5222680232055_2_alg».proof.Proof.Gen.Pre_finite_inputs
import proofs.«123001_j5222680232055_2_alg».proof.Proof.Gen.KernelIdeal.Value
import proofs.«123001_j5222680232055_2_alg».proof.Proof.Gen.ReferenceIdeal.Run
import proofs.«123001_j5222680232055_2_alg».proof.Proof.Gen.ReferenceIdeal.Read
import proofs.«123001_j5222680232055_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel :=
  fun m ρ _ => Cert.Kernel.Gen.frame m ρ

/-- So does the idealized kernel program. -/
theorem frame_ki : Cert.frame_KernelIdeal :=
  fun m ρ _ => Cert.KernelIdeal.Gen.frame m ρ

/-- So does the reference: its run, with the result forgotten. -/
theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end with the same result array: the kernel's
    at the function of its arguments that its tiles assemble, the reference's at its operations' term, and the two are
    one function (`Bridge.result_eq`). -/
theorem algebraic : Cert.algebraic_KernelIdeal_ReferenceIdeal := by
  intro m ρ m' ρ' _ hagree
  refine ⟨fun c => Cert.Fused.Blocks.result m c, Cert.Fused.Blocks.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v70_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Fused.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
